-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x64 : S_.BroadcastsInDim S640000x64 (![] : Fin 0 → Fin S640000x64.rank)
  reducesTo_S640000x64_S_d0_1 : S640000x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S128 .f32) (main_arg11 : FVec F S3x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S64x128 .f32) (main_arg8 : FVec F S128 .f32) (main_arg9 : FVec F S128x128 .f32) (main_arg10 : FVec F S128 .f32) (main_arg11 : FVec F S3x128 .f32) (main_arg12 : FVec F S128x128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S20000x128 .f32) (main_arg1 : IVec S2x640000 32) (main_arg2 : FVec F S640000 .f32) (main_arg3 : FVec F S640000x64 .f32) (main_arg4 : IVec S20000 32) (main_arg5 : IVec S2x39996 32) (main_arg6 : FVec F S128x128 .f32) (main_arg7 : FVec F S64x128 .f32) (main_arg8 : FVec F S128 .f32) (main_arg9 : FVec F S128x128 .f32) (main_arg10 : FVec F S128 .f32) (main_arg11 : FVec F S3x128 .f32) (main_arg12 : FVec F S128x128 .f32) (main_arg13 : FVec F S128 .f32) (main_arg14 : FVec F S128x128 .f32) (main_arg15 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x64 .f32 := Host.absf main_arg3
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S2000x128 : Shape := ⟨2, ![2000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S6400x64 : Shape := ⟨2, ![6400, 64]⟩
abbrev S6400x128 : Shape := ⟨2, ![6400, 128]⟩
abbrev S1x39996 : Shape := ⟨2, ![1, 39996]⟩
abbrev S39996 : Shape := ⟨1, ![39996]⟩
abbrev S39996x1 : Shape := ⟨2, ![39996, 1]⟩
abbrev S39996x128 : Shape := ⟨2, ![39996, 128]⟩
abbrev S20000x1 : Shape := ⟨2, ![20000, 1]⟩

abbrev nBuf : Space → Nat
  | .hbm => 122
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x64, .f32⟩
  | .hbm, ⟨4, _⟩ => ⟨S20000, .i32⟩
  | .hbm, ⟨5, _⟩ => ⟨S2x39996, .i32⟩
  | .hbm, ⟨6, _⟩ => ⟨S128x128, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S3x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S20000x128, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .f32⟩
  | .hbm, ⟨22, _⟩ => ⟨S640000, .f32⟩
  | .hbm, ⟨23, _⟩ => ⟨S640000, .f32⟩
  | .hbm, ⟨24, _⟩ => ⟨S_, .f32⟩
  | .hbm, ⟨25, _⟩ => ⟨S640000, .f32⟩
  | .hbm, ⟨26, _⟩ => ⟨S640000, .f32⟩
  | .hbm, ⟨27, _⟩ => ⟨S640000, .f32⟩
  | .hbm, ⟨28, _⟩ => ⟨S_, .f32⟩
  | .hbm, ⟨29, _⟩ => ⟨S640000, .f32⟩
  | .hbm, ⟨30, _⟩ => ⟨S640000, .f32⟩
  | .hbm, ⟨31, _⟩ => ⟨S_, .f32⟩
  | .hbm, ⟨32, _⟩ => ⟨S640000, .f32⟩
  | .hbm, ⟨33, _⟩ => ⟨S640000, .f32⟩
  | .hbm, ⟨34, _⟩ => ⟨S_, .f32⟩
  | .hbm, ⟨35, _⟩ => ⟨S640000, .f32⟩
  | .hbm, ⟨36, _⟩ => ⟨S640000, .i1⟩
  | .hbm, ⟨37, _⟩ => ⟨S640000, .f32⟩
  | .hbm, ⟨38, _⟩ => ⟨S640000, .f32⟩
  | .hbm, ⟨39, _⟩ => ⟨S640000x1, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .bf16⟩
  | .hbm, ⟨52, _⟩ => ⟨S1x128, .f32⟩
  | .hbm, ⟨53, _⟩ => ⟨S1x128, .f32⟩
  | .hbm, ⟨54, _⟩ => ⟨S640000x128, .bf16⟩
  | .hbm, ⟨55, _⟩ => ⟨S640000x128, .f32⟩
  | .hbm, ⟨56, _⟩ => ⟨S_, .f32⟩
  | .hbm, ⟨57, _⟩ => ⟨S20000x128, .f32⟩
  | .hbm, ⟨58, _⟩ => ⟨S640000x1, .i32⟩
  | .hbm, ⟨59, _⟩ => ⟨S20000x128, .f32⟩
  | .hbm, ⟨60, _⟩ => ⟨S1x39996, .i32⟩
  | .hbm, ⟨61, _⟩ => ⟨S39996, .i32⟩
  | .hbm, ⟨62, _⟩ => ⟨S_, .i32⟩
  | .hbm, ⟨63, _⟩ => ⟨S39996, .i32⟩
  | .hbm, ⟨64, _⟩ => ⟨S39996, .i1⟩
  | .hbm, ⟨65, _⟩ => ⟨S_, .i32⟩
  | .hbm, ⟨66, _⟩ => ⟨S39996, .i32⟩
  | .hbm, ⟨67, _⟩ => ⟨S39996, .i32⟩
  | .hbm, ⟨68, _⟩ => ⟨S39996, .i32⟩
  | .hbm, ⟨69, _⟩ => ⟨S39996x1, .i32⟩
  | .hbm, ⟨70, _⟩ => ⟨S39996, .i32⟩
  | .hbm, ⟨71, _⟩ => ⟨S_, .i32⟩
  | .hbm, ⟨72, _⟩ => ⟨S39996, .i32⟩
  | .hbm, ⟨73, _⟩ => ⟨S39996, .i1⟩
  | .hbm, ⟨74, _⟩ => ⟨S_, .i32⟩
  | .hbm, ⟨75, _⟩ => ⟨S39996, .i32⟩
  | .hbm, ⟨76, _⟩ => ⟨S39996, .i32⟩
  | .hbm, ⟨77, _⟩ => ⟨S39996, .i32⟩
  | .hbm, ⟨78, _⟩ => ⟨S39996x1, .i32⟩
  | .hbm, ⟨79, _⟩ => ⟨S39996x128, .f32⟩
  | .hbm, ⟨80, _⟩ => ⟨S1x39996, .i32⟩
  | .hbm, ⟨81, _⟩ => ⟨S39996, .i32⟩
  | .hbm, ⟨82, _⟩ => ⟨S1x39996, .i32⟩
  | .hbm, ⟨83, _⟩ => ⟨S39996, .i32⟩
  | .hbm, ⟨84, _⟩ => ⟨S39996, .i32⟩
  | .hbm, ⟨85, _⟩ => ⟨S_, .i32⟩
  | .hbm, ⟨86, _⟩ => ⟨S39996, .i32⟩
  | .hbm, ⟨87, _⟩ => ⟨S39996, .i32⟩
  | .hbm, ⟨88, _⟩ => ⟨S_, .i32⟩
  | .hbm, ⟨89, _⟩ => ⟨S39996, .i32⟩
  | .hbm, ⟨90, _⟩ => ⟨S39996, .i1⟩
  | .hbm, ⟨91, _⟩ => ⟨S_, .i32⟩
  | .hbm, ⟨92, _⟩ => ⟨S39996, .i32⟩
  | .hbm, ⟨93, _⟩ => ⟨S39996, .i32⟩
  | .hbm, ⟨94, _⟩ => ⟨S39996, .i32⟩
  | .hbm, ⟨95, _⟩ => ⟨S39996x1, .i32⟩
  | .hbm, ⟨96, _⟩ => ⟨S39996x128, .f32⟩
  | .hbm, ⟨97, _⟩ => ⟨S39996x128, .f32⟩
  | .hbm, ⟨98, _⟩ => ⟨S1x39996, .i32⟩
  | .hbm, ⟨99, _⟩ => ⟨S39996, .i32⟩
  | .hbm, ⟨100, _⟩ => ⟨S_, .f32⟩
  | .hbm, ⟨101, _⟩ => ⟨S20000x128, .f32⟩
  | .hbm, ⟨102, _⟩ => ⟨S39996x1, .i32⟩
  | .hbm, ⟨103, _⟩ => ⟨S20000x128, .f32⟩
  | .hbm, ⟨104, _⟩ => ⟨S1x128, .f32⟩
  | .hbm, ⟨105, _⟩ => ⟨S128, .f32⟩
  | .hbm, ⟨106, _⟩ => ⟨S_, .i32⟩
  | .hbm, ⟨107, _⟩ => ⟨S20000, .i32⟩
  | .hbm, ⟨108, _⟩ => ⟨S20000, .i1⟩
  | .hbm, ⟨109, _⟩ => ⟨S_, .i32⟩
  | .hbm, ⟨110, _⟩ => ⟨S20000, .i32⟩
  | .hbm, ⟨111, _⟩ => ⟨S20000, .i32⟩
  | .hbm, ⟨112, _⟩ => ⟨S20000, .i32⟩
  | .hbm, ⟨113, _⟩ => ⟨S20000x1, .i32⟩
  | .hbm, ⟨114, _⟩ => ⟨S20000x128, .f32⟩
  | .hbm, ⟨115, _⟩ => ⟨S1x128, .f32⟩
  | .hbm, ⟨116, _⟩ => ⟨S20000x128, .f32⟩
  | .hbm, ⟨117, _⟩ => ⟨S20000x128, .f32⟩
  | .hbm, ⟨118, _⟩ => ⟨S20000x128, .f32⟩
  | .hbm, ⟨119, _⟩ => ⟨S1x128, .f32⟩
  | .hbm, ⟨120, _⟩ => ⟨S1x128, .f32⟩
  | .hbm, ⟨121, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S6400x64, .f32⟩
  | .local _ .vmem, ⟨6, _⟩ => ⟨S6400x64, .f32⟩
  | .local _ .vmem, ⟨7, _⟩ => ⟨S6400x128, .bf16⟩
  | .local _ .vmem, ⟨8, _⟩ => ⟨S6400x128, .bf16⟩
  | .local _ .vmem, ⟨9, _⟩ => ⟨S64x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S6400x128, .bf16⟩
  | .local _ .vmem, ⟨14, _⟩ => ⟨S6400x128, .bf16⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  shapeCasts_S128_S1x128 : S128.ShapeCasts S1x128
  inb_S6400x64_S6400x64_0_0 : ∀ a, (![0, 0] : Fin 2 → Nat) a + S6400x64.size a ≤ S6400x64.size a
  h_S6400x64 : 0 < S6400x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  packedbf16_S6400x128_S6400x128_0_0 : (Rect.unit (s := S6400x128) ![0, 0] S6400x128.size inb_S6400x128_S6400x128_0_0).PackedRows (EltTy.packing .bf16)
  bcast_S_S20000x128 : S_.BroadcastsInDim S20000x128 (![] : Fin 0 → Fin S20000x128.rank)
  slices_S2x39996_S1x39996_0_0 : S2x39996.Slices ![0, 0] S1x39996
  shapeCasts_S1x39996_S39996 : S1x39996.ShapeCasts S39996
  bcast_S_S39996 : S_.BroadcastsInDim S39996 (![] : Fin 0 → Fin S39996.rank)
  bcast_S39996_S39996x1_0 : S39996.BroadcastsInDim S39996x1 (![0] : Fin 1 → Fin S39996x1.rank)
  slices_S2x39996_S1x39996_1_0 : S2x39996.Slices ![1, 0] S1x39996
  slices_S3x128_S1x128_1_0 : S3x128.Slices ![1, 0] S1x128
  shapeCasts_S1x128_S128 : S1x128.ShapeCasts S128
  bcast_S_S20000 : S_.BroadcastsInDim S20000 (![] : Fin 0 → Fin S20000.rank)
  bcast_S20000_S20000x1_0 : S20000.BroadcastsInDim S20000x1 (![0] : Fin 1 → Fin S20000x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  dot_S6400x64_S64x128_S6400x128_1_0_0_1_n_n_wf : DotDims.WF S6400x64 S64x128 S6400x128 [1] [0] [0] [1] [] []
  dot_S6400x128_S128x128_S6400x128_1_0_0_1_n_n_wf : DotDims.WF S6400x128 S128x128 S6400x128 [1] [0] [0] [1] [] []
  scatter_S20000x128_S640000x1_S640000x128_1_0_0_1_wf : ScatterDims.WF S20000x128 S640000x1 S640000x128 [1] [0] [0] 1
  gather_S20000_S39996x1_S39996_n_0_n_n_0_1_1_wf : GatherDims.WF S20000 S39996x1 S39996 [] [0] [] [0] [] 1 ![1]
  gather_S20000x128_S39996x1_S39996x128_1_0_n_n_0_1_1128_wf : GatherDims.WF S20000x128 S39996x1 S39996x128 [1] [0] [] [0] [] 1 ![1, 128]
  gather_S3x128_S39996x1_S39996x128_1_0_n_n_0_1_1128_wf : GatherDims.WF S3x128 S39996x1 S39996x128 [1] [0] [] [0] [] 1 ![1, 128]
  scatter_S20000x128_S39996x1_S39996x128_1_0_0_1_wf : ScatterDims.WF S20000x128 S39996x1 S39996x128 [1] [0] [0] 1
  gather_S20000x128_S20000x1_S20000x128_1_0_n_n_0_1_1128_wf : GatherDims.WF S20000x128 S20000x1 S20000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S640000x64.size a
  hwx1_0 : ∀ i : grid1.Coords, EltTy.bits .f32 = 32 ∨ (Rect.block (s := S640000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S640000x128.size a
  hwx1_1 : ∀ i : grid1.Coords, EltTy.bits .bf16 = 32 ∨ (Rect.block (s := S640000x128) S6400x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6400x128.size a ≤ S640000x128.size a
  hwx1_6 : ∀ i : grid1.Coords, EltTy.bits .bf16 = 32 ∨ (Rect.block (s := S640000x128) S6400x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S20000x128.size a
  hwx2_6 : ∀ i : grid2.Coords, EltTy.bits .f32 = 32 ∨ (Rect.block (s := S20000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000_S39996x1_S39996_n_0_n_n_0_1_1 : GatherDims S20000 S39996x1 S39996 where
  offsetDims := []
  collapsedSliceDims := [0]
  operandBatchingDims := []
  startIndicesBatchingDims := []
  startIndexMap := [0]
  indexVectorDim := 1
  sliceSizes := ![1]
  wf := gather_S20000_S39996x1_S39996_n_0_n_n_0_1_1_wf
def gather_S20000x128_S39996x1_S39996x128_1_0_n_n_0_1_1128 : GatherDims S20000x128 S39996x1 S39996x128 where
  offsetDims := [1]
  collapsedSliceDims := [0]
  operandBatchingDims := []
  startIndicesBatchingDims := []
  startIndexMap := [0]
  indexVectorDim := 1
  sliceSizes := ![1, 128]
  wf := gather_S20000x128_S39996x1_S39996x128_1_0_n_n_0_1_1128_wf
def gather_S3x128_S39996x1_S39996x128_1_0_n_n_0_1_1128 : GatherDims S3x128 S39996x1 S39996x128 where
  offsetDims := [1]
  collapsedSliceDims := [0]
  operandBatchingDims := []
  startIndicesBatchingDims := []
  startIndexMap := [0]
  indexVectorDim := 1
  sliceSizes := ![1, 128]
  wf := gather_S3x128_S39996x1_S39996x128_1_0_n_n_0_1_1128_wf
def scatter_S20000x128_S39996x1_S39996x128_1_0_0_1 : ScatterDims S20000x128 S39996x1 S39996x128 where
  updateWindowDims := [1]
  insertedWindowDims := [0]
  scatterDimsToOperandDims := [0]
  indexVectorDim := 1
  wf := scatter_S20000x128_S39996x1_S39996x128_1_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S6400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S_ : Shape := ⟨0, ![]⟩
abbrev S640000x128 : Shape := ⟨2, ![640000, 128]⟩
abbrev S1x128 : Shape := ⟨2, ![1, 128]⟩
abbrev S640000x1 : Shape := ⟨2, ![640000, 1]⟩
abbrev S1x640000 : Shape := ⟨2, ![1, 640000]⟩
abbrev S1x39996 : Shape := ⟨2, ![1, 39996]⟩
abbrev S39996 : Shape := ⟨1, ![39996]⟩
abbrev S39996x1 : Shape := ⟨2, ![39996, 1]⟩
abbrev S39996x128 : Shape := ⟨2, ![39996, 128]⟩
abbrev S20000x1 : Shape := ⟨2, ![20000, 1]⟩

abbrev nBuf : Space → Nat
  | .hbm => 134
  | .vmem => 0
  | .smem => 0
  | _ => 0

abbrev hbmTy0_0 (i : Nat) : BufTy := match i % 128 with
  | 0 => ⟨S20000x128, .f32⟩
  | 1 => ⟨S2x640000, .i32⟩
  | 2 => ⟨S640000, .f32⟩
  | 3 => ⟨S640000x64, .f32⟩
  | 4 => ⟨S20000, .i32⟩
  | 5 => ⟨S2x39996, .i32⟩
  | 6 => ⟨S128x128, .f32⟩
  | 7 => ⟨S64x128, .f32⟩
  | 8 => ⟨S128, .f32⟩
  | 9 => ⟨S128x128, .f32⟩
  | 10 => ⟨S128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S_, .f32⟩
  | 17 => ⟨S640000, .f32⟩
  | 18 => ⟨S640000, .f32⟩
  | 19 => ⟨S_, .f32⟩
  | 20 => ⟨S640000, .f32⟩
  | 21 => ⟨S640000, .f32⟩
  | 22 => ⟨S640000, .f32⟩
  | 23 => ⟨S_, .f32⟩
  | 24 => ⟨S640000, .f32⟩
  | 25 => ⟨S640000, .f32⟩
  | 26 => ⟨S_, .f32⟩
  | 27 => ⟨S640000, .f32⟩
  | 28 => ⟨S640000, .f32⟩
  | 29 => ⟨S_, .f32⟩
  | 30 => ⟨S640000, .f32⟩
  | 31 => ⟨S640000, .i1⟩
  | 32 => ⟨S640000, .f32⟩
  | 33 => ⟨S640000, .f32⟩
  | 34 => ⟨S640000x128, .f32⟩
  | 35 => ⟨S1x128, .f32⟩
  | 36 => ⟨S640000x128, .f32⟩
  | 37 => ⟨S640000x128, .f32⟩
  | 38 => ⟨S640000x128, .f32⟩
  | 39 => ⟨S640000x128, .f32⟩
  | 40 => ⟨S1x128, .f32⟩
  | 41 => ⟨S640000x128, .f32⟩
  | 42 => ⟨S640000x128, .f32⟩
  | 43 => ⟨S640000x1, .f32⟩
  | 44 => ⟨S640000x128, .f32⟩
  | 45 => ⟨S640000x128, .f32⟩
  | 46 => ⟨S20000x128, .f32⟩
  | 47 => ⟨S1x640000, .i32⟩
  | 48 => ⟨S640000, .i32⟩
  | 49 => ⟨S1x640000, .i32⟩
  | 50 => ⟨S640000, .i32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S_, .f32⟩
  | 62 => ⟨S20000x128, .f32⟩
  | 63 => ⟨S640000x1, .i32⟩
  | 64 => ⟨S20000x128, .f32⟩
  | 65 => ⟨S1x39996, .i32⟩
  | 66 => ⟨S39996, .i32⟩
  | 67 => ⟨S_, .i32⟩
  | 68 => ⟨S39996, .i32⟩
  | 69 => ⟨S39996, .i1⟩
  | 70 => ⟨S_, .i32⟩
  | 71 => ⟨S39996, .i32⟩
  | 72 => ⟨S39996, .i32⟩
  | 73 => ⟨S39996, .i32⟩
  | 74 => ⟨S39996x1, .i32⟩
  | 75 => ⟨S39996, .i32⟩
  | 76 => ⟨S_, .i32⟩
  | 77 => ⟨S39996, .i32⟩
  | 78 => ⟨S39996, .i1⟩
  | 79 => ⟨S_, .i32⟩
  | 80 => ⟨S39996, .i32⟩
  | 81 => ⟨S39996, .i32⟩
  | 82 => ⟨S39996, .i32⟩
  | 83 => ⟨S39996x1, .i32⟩
  | 84 => ⟨S39996x128, .f32⟩
  | 85 => ⟨S1x39996, .i32⟩
  | 86 => ⟨S39996, .i32⟩
  | 87 => ⟨S1x39996, .i32⟩
  | 88 => ⟨S39996, .i32⟩
  | 89 => ⟨S39996, .i32⟩
  | 90 => ⟨S_, .i32⟩
  | 91 => ⟨S39996, .i32⟩
  | 92 => ⟨S39996, .i32⟩
  | 93 => ⟨S_, .i32⟩
  | 94 => ⟨S39996, .i32⟩
  | 95 => ⟨S39996, .i1⟩
  | 96 => ⟨S_, .i32⟩
  | 97 => ⟨S39996, .i32⟩
  | 98 => ⟨S39996, .i32⟩
  | 99 => ⟨S39996, .i32⟩
  | 100 => ⟨S39996x1, .i32⟩
  | 101 => ⟨S39996x128, .f32⟩
  | 102 => ⟨S39996x128, .f32⟩
  | 103 => ⟨S1x39996, .i32⟩
  | 104 => ⟨S39996, .i32⟩
  | 105 => ⟨S_, .f32⟩
  | 106 => ⟨S20000x128, .f32⟩
  | 107 => ⟨S39996x1, .i32⟩
  | 108 => ⟨S20000x128, .f32⟩
  | 109 => ⟨S1x128, .f32⟩
  | 110 => ⟨S128, .f32⟩
  | 111 => ⟨S_, .i32⟩
  | 112 => ⟨S20000, .i32⟩
  | 113 => ⟨S20000, .i1⟩
  | 114 => ⟨S_, .i32⟩
  | 115 => ⟨S20000, .i32⟩
  | 116 => ⟨S20000, .i32⟩
  | 117 => ⟨S20000, .i32⟩
  | 118 => ⟨S20000x1, .i32⟩
  | 119 => ⟨S20000x128, .f32⟩
  | 120 => ⟨S1x128, .f32⟩
  | 121 => ⟨S20000x128, .f32⟩
  | 122 => ⟨S20000x128, .f32⟩
  | 123 => ⟨S20000x128, .f32⟩
  | 124 => ⟨S20000x128, .f32⟩
  | 125 => ⟨S20000x128, .f32⟩
  | 126 => ⟨S1x128, .f32⟩
  | 127 => ⟨S20000x128, .f32⟩
  | _ => ⟨S20000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S1x128, .f32⟩
  | 4 => ⟨S20000x128, .f32⟩
  | 5 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S20000x128 : S_.BroadcastsInDim S20000x128 (![] : Fin 0 → Fin S20000x128.rank)
  slices_S2x39996_S1x39996_0_0 : S2x39996.Slices ![0, 0] S1x39996
  shapeCasts_S1x39996_S39996 : S1x39996.ShapeCasts S39996
  bcast_S_S39996 : S_.BroadcastsInDim S39996 (![] : Fin 0 → Fin S39996.rank)
  bcast_S39996_S39996x1_0 : S39996.BroadcastsInDim S39996x1 (![0] : Fin 1 → Fin S39996x1.rank)
  slices_S2x39996_S1x39996_1_0 : S2x39996.Slices ![1, 0] S1x39996
  slices_S3x128_S1x128_1_0 : S3x128.Slices ![1, 0] S1x128
  shapeCasts_S1x128_S128 : S1x128.ShapeCasts S128
  bcast_S_S20000 : S_.BroadcastsInDim S20000 (![] : Fin 0 → Fin S20000.rank)
  bcast_S20000_S20000x1_0 : S20000.BroadcastsInDim S20000x1 (![0] : Fin 1 → Fin S20000x1.rank)
  bcast_S1x128_S20000x128_0_1 : S1x128.BroadcastsInDim S20000x128 (![0, 1] : Fin 2 → Fin S20000x128.rank)
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  gather_S20000_S39996x1_S39996_n_0_n_n_0_1_1_wf : GatherDims.WF S20000 S39996x1 S39996 [] [0] [] [0] [] 1 ![1]
  gather_S20000x128_S39996x1_S39996x128_1_0_n_n_0_1_1128_wf : GatherDims.WF S20000x128 S39996x1 S39996x128 [1] [0] [] [0] [] 1 ![1, 128]
  gather_S3x128_S39996x1_S39996x128_1_0_n_n_0_1_1128_wf : GatherDims.WF S3x128 S39996x1 S39996x128 [1] [0] [] [0] [] 1 ![1, 128]
  scatter_S20000x128_S39996x1_S39996x128_1_0_0_1_wf : ScatterDims.WF S20000x128 S39996x1 S39996x128 [1] [0] [0] 1
  gather_S20000x128_S20000x1_S20000x128_1_0_n_n_0_1_1128_wf : GatherDims.WF S20000x128 S20000x1 S20000x128 [1] [0] [] [0] [] 1 ![1, 128]

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000_S39996x1_S39996_n_0_n_n_0_1_1 : GatherDims S20000 S39996x1 S39996 where
  offsetDims := []
  collapsedSliceDims := [0]
  operandBatchingDims := []
  startIndicesBatchingDims := []
  startIndexMap := [0]
  indexVectorDim := 1
  sliceSizes := ![1]
  wf := gather_S20000_S39996x1_S39996_n_0_n_n_0_1_1_wf
def gather_S20000x128_S39996x1_S39996x128_1_0_n_n_0_1_1128 : GatherDims S20000x128 S39996x1 S39996x128 where
  offsetDims := [1]
  collapsedSliceDims := [0]
  operandBatchingDims := []
  startIndicesBatchingDims := []
  startIndexMap := [0]
  indexVectorDim := 1
  sliceSizes := ![1, 128]
  wf := gather_S20000x128_S39996x1_S39996x128_1_0_n_n_0_1_1128_wf
def gather_S3x128_S39996x1_S39996x128_1_0_n_n_0_1_1128 : GatherDims S3x128 S39996x1 S39996x128 where
  offsetDims := [1]
  collapsedSliceDims := [0]
  operandBatchingDims := []
  startIndicesBatchingDims := []
  startIndexMap := [0]
  indexVectorDim := 1
  sliceSizes := ![1, 128]
  wf := gather_S3x128_S39996x1_S39996x128_1_0_n_n_0_1_1128_wf
def scatter_S20000x128_S39996x1_S39996x128_1_0_0_1 : ScatterDims S20000x128 S39996x1 S39996x128 where
  updateWindowDims := [1]
  insertedWindowDims := [0]
  scatterDimsToOperandDims := [0]
  indexVectorDim := 1
  wf := scatter_S20000x128_S39996x1_S39996x128_1_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf

class Facts : Prop extends Facts₀ where

variable [Facts]
-- ==== Proof.KernelRun.lean ====
/-
  The kernel program's run with every buffer named.

  @main is three regions separated by two stretches of host operations. Every weakly fair execution terminates without
  a fault, and each unscoped buffer of each TensorCore then holds what the fold of the five segments leaves in it:
  the launch memory, through the first region's write-backs, the first host stretch, the second region's write-backs,
  the second host stretch and the third region's write-backs (`Gen.W5`). The frame of the program (its arguments
  unchanged) and the value of its result are both read off this one statement.
-/
import proofs.«155930_j31559419691086_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold of the segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer after the run: the third region's result array as its write-backs leave it. -/
theorem result_eq (c : Dev nD) : W5 m ρ c (Proc.devRef .tc main_v87) = (dat2 (V4 m ρ) c).arrAt 6 cfg2.N :=
  W5_arr m ρ c 6

/-- The run with the result named and the arguments unchanged. -/
theorem run_result : θ_run defs (onTc (τ := τ) (main (F := F))) ⟨m, fun _ => 0, ρ⟩ (fun r => ∀ c : Dev nD,
      r.2.mem ((c.tc : Thread nD τ).loc main_v87) = (dat2 (V4 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨(h c _ (mem_uc main_v87 (by decide))).trans (result_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)
    (run_all m ρ)

end Cert.KernelIdeal.Whole

end
-- ==== Proof.HostGlue.lean ====
/-
  The host operations between the regions, read as functions of the buffers they start from.

  Between its three regions the kernel program gathers rows of the first region's result by the edges' source nodes,
  scales them by the cosine cutoff of the edge lengths, and — after the second region — adds the per-edge messages into
  their target nodes and forms the sequence aggregate from the same first-region result. These are the operations the
  reference applies to its own intermediate values, so each buffer is stated here with the reference's own stage
  functions for everything that does not depend on a region's result: the cutoff, the index vectors, the zero arrays.
-/
import proofs.«155930_j31559419691086_2_alg».proof.Proof.Gen.KernelIdeal.Launch
import proofs.«155930_j31559419691086_2_alg».proof.Proof.Gen.ReferenceIdeal.Read
import Idealize.ShloMosaic.Lib.StableHlo.Run

noncomputable section

namespace Cert.Bridge

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-! ## The first stretch: between the first dense layer and the filter region -/

/-- After the first stretch the gathered-feature buffer holds the cutoff times the rows of the first region's
    result gathered by source node. -/
theorem gathered_eq : after (hostOps1 (F := Ideal)) W (Proc.devRef .tc main_v28)
    = (show (⟨S640000x128, .bf16⟩ : BufTy).Contents (Elt Ideal) from
        truncf (F := Ideal) .bf16 (mulf (F := Ideal) (val_main_v23 (F := Ideal) (W (Proc.devRef .tc main_arg2)))
          (Host.gather gather_S20000x128_S640000x1_S640000x128_1_0_n_n_0_1_1128 (W (Proc.devRef .tc main_v0))
            (val_main_v35 (F := Ideal) (W (Proc.devRef .tc main_arg1))))) bitsLt_bf16_f32) := by
  after_results_simp
  rfl

/-- After the first stretch the first bias buffer holds the first bias as a `1 × 128` block. -/
theorem bias1_eq : after (hostOps1 (F := Ideal)) W (Proc.devRef .tc main_v29)
    = (show (⟨S1x128, .f32⟩ : BufTy).Contents (Elt Ideal) from
        shapeCast S1x128 (W (Proc.devRef .tc main_arg8)) shapeCasts_S128_S1x128) := by
  after_results_simp
  rfl

/-- After the first stretch the second bias buffer holds the second bias as a `1 × 128` block. -/
theorem bias2_eq : after (hostOps1 (F := Ideal)) W (Proc.devRef .tc main_v30)
    = (show (⟨S1x128, .f32⟩ : BufTy).Contents (Elt Ideal) from
        shapeCast S1x128 (W (Proc.devRef .tc main_arg10)) shapeCasts_S128_S1x128) := by
  after_results_simp
  rfl

/-- After the first stretch the target-node buffer holds the second row of the edge index. -/
theorem targets_eq : after (hostOps1 (F := Ideal)) W (Proc.devRef .tc main_v4)
    = (show (⟨S640000, .i32⟩ : BufTy).Contents (Elt Ideal) from val_main_v29 (F := Ideal) (W (Proc.devRef .tc main_arg1))) := by
  after_results_simp
  rfl

/-- The first stretch writes neither the first region's result nor any argument the later segments read. -/
theorem keep1_v0 : after (hostOps1 (F := Ideal)) W (Proc.devRef .tc main_v0) = W (Proc.devRef .tc main_v0) := by
  after_results_simp
theorem keep1_arg3 : after (hostOps1 (F := Ideal)) W (Proc.devRef .tc main_arg3) = W (Proc.devRef .tc main_arg3) := by
  after_results_simp
theorem keep1_arg7 : after (hostOps1 (F := Ideal)) W (Proc.devRef .tc main_arg7) = W (Proc.devRef .tc main_arg7) := by
  after_results_simp
theorem keep1_arg9 : after (hostOps1 (F := Ideal)) W (Proc.devRef .tc main_arg9) = W (Proc.devRef .tc main_arg9) := by
  after_results_simp
theorem keep1_arg4 : after (hostOps1 (F := Ideal)) W (Proc.devRef .tc main_arg4) = W (Proc.devRef .tc main_arg4) := by
  after_results_simp
theorem keep1_arg5 : after (hostOps1 (F := Ideal)) W (Proc.devRef .tc main_arg5) = W (Proc.devRef .tc main_arg5) := by
  after_results_simp
theorem keep1_arg11 : after (hostOps1 (F := Ideal)) W (Proc.devRef .tc main_arg11) = W (Proc.devRef .tc main_arg11) := by
  after_results_simp
theorem keep1_arg12 : after (hostOps1 (F := Ideal)) W (Proc.devRef .tc main_arg12) = W (Proc.devRef .tc main_arg12) := by
  after_results_simp
theorem keep1_arg13 : after (hostOps1 (F := Ideal)) W (Proc.devRef .tc main_arg13) = W (Proc.devRef .tc main_arg13) := by
  after_results_simp
theorem keep1_arg14 : after (hostOps1 (F := Ideal)) W (Proc.devRef .tc main_arg14) = W (Proc.devRef .tc main_arg14) := by
  after_results_simp
theorem keep1_arg15 : after (hostOps1 (F := Ideal)) W (Proc.devRef .tc main_arg15) = W (Proc.devRef .tc main_arg15) := by
  after_results_simp

/-! ## The second stretch: between the filter region and the closing region -/

/-- The sequence aggregate as a function of the node features `h` it gathers from: neighbour messages weighted by the
    sequence weights and added into their centres, plus the self term. -/
def seqAgg (h : (⟨S20000x128, .f32⟩ : BufTy).Contents (Elt Ideal)) (x4 : (⟨S20000, .i32⟩ : BufTy).Contents (Elt Ideal))
    (x5 : (⟨S2x39996, .i32⟩ : BufTy).Contents (Elt Ideal)) (x11 : (⟨S3x128, .f32⟩ : BufTy).Contents (Elt Ideal)) :
    (⟨S20000x128, .f32⟩ : BufTy).Contents (Elt Ideal) :=
  addf (F := Ideal) (φ := .f32)
    (Host.scatterAdd (F := Ideal) (φ := .f32) scatter_S20000x128_S39996x1_S39996x128_1_0_0_1 (val_main_v74 (F := Ideal))
      (val_main_v75 (F := Ideal) x5)
      (mulf (F := Ideal) (φ := .f32) (val_main_v70 (F := Ideal) x5 x11)
        (Host.gather gather_S20000x128_S39996x1_S39996x128_1_0_n_n_0_1_1128 h (val_main_v55 (F := Ideal) x4 x5))))
    (mulf (F := Ideal) (φ := .f32) (val_main_v87 (F := Ideal) x11)
      (Host.gather gather_S20000x128_S20000x1_S20000x128_1_0_n_n_0_1_1128 h (val_main_v84 (F := Ideal) x4)))

/-- At the reference's own node features the sequence aggregate is the reference's. -/
theorem seqAgg_ref (x0 : (⟨S20000x128, .f32⟩ : BufTy).Contents (Elt Ideal)) (x4 : (⟨S20000, .i32⟩ : BufTy).Contents (Elt Ideal))
    (x5 : (⟨S2x39996, .i32⟩ : BufTy).Contents (Elt Ideal)) (x6 : (⟨S128x128, .f32⟩ : BufTy).Contents (Elt Ideal))
    (x11 : (⟨S3x128, .f32⟩ : BufTy).Contents (Elt Ideal)) :
    seqAgg (val_main_v25 (F := Ideal) x0 x6) x4 x5 x11 = val_main_v89 (F := Ideal) x0 x4 x5 x6 x11 := rfl

set_option maxHeartbeats 8000000 in
set_option maxRecDepth 8192 in
/-- After the second stretch the edge-aggregate buffer holds the second region's messages added into their targets. -/
theorem agg_eq : after (hostOps2 (F := Ideal)) W (Proc.devRef .tc main_v35)
    = (show (⟨S20000x128, .f32⟩ : BufTy).Contents (Elt Ideal) from
        Host.scatterAdd (F := Ideal) (φ := .f32) scatter_S20000x128_S640000x1_S640000x128_1_0_0_1 (val_main_v38 (F := Ideal))
          (broadcastInDim S640000x1 ![0] bcast_S640000_S640000x1_0 (W (Proc.devRef .tc main_v4)))
          (extf (F := Ideal) .f32 (W (Proc.devRef .tc main_v31)) bitsLt_bf16_f32)) := by
  after_results_simp
  rfl

set_option maxHeartbeats 8000000 in
set_option maxRecDepth 8192 in
/-- After the second stretch the sequence-aggregate buffer holds `seqAgg` of the first region's result. -/
theorem seq_eq : after (hostOps2 (F := Ideal)) W (Proc.devRef .tc main_v84)
    = seqAgg (W (Proc.devRef .tc main_v0)) (W (Proc.devRef .tc main_arg4)) (W (Proc.devRef .tc main_arg5))
        (W (Proc.devRef .tc main_arg11)) := by
  after_results_simp
  rfl

set_option maxHeartbeats 8000000 in
set_option maxRecDepth 8192 in
/-- After the second stretch the third bias buffer holds the third bias as a `1 × 128` block. -/
theorem bias3_eq : after (hostOps2 (F := Ideal)) W (Proc.devRef .tc main_v85)
    = (show (⟨S1x128, .f32⟩ : BufTy).Contents (Elt Ideal) from
        shapeCast S1x128 (W (Proc.devRef .tc main_arg13)) shapeCasts_S128_S1x128) := by
  after_results_simp
  rfl

set_option maxHeartbeats 8000000 in
set_option maxRecDepth 8192 in
/-- After the second stretch the fourth bias buffer holds the fourth bias as a `1 × 128` block. -/
theorem bias4_eq : after (hostOps2 (F := Ideal)) W (Proc.devRef .tc main_v86)
    = (show (⟨S1x128, .f32⟩ : BufTy).Contents (Elt Ideal) from
        shapeCast S1x128 (W (Proc.devRef .tc main_arg15)) shapeCasts_S128_S1x128) := by
  after_results_simp
  rfl

set_option maxHeartbeats 8000000 in
set_option maxRecDepth 8192 in
/-- The second stretch writes neither of the closing region's weight matrices. -/
theorem keep2_arg12 : after (hostOps2 (F := Ideal)) W (Proc.devRef .tc main_arg12) = W (Proc.devRef .tc main_arg12) := by
  after_results_simp

set_option maxHeartbeats 8000000 in
set_option maxRecDepth 8192 in
theorem keep2_arg14 : after (hostOps2 (F := Ideal)) W (Proc.devRef .tc main_arg14) = W (Proc.devRef .tc main_arg14) := by
  after_results_simp

end Cert.Bridge

end
-- ==== Proof.Spec.lean ====
/-
  The arithmetic of one continuous-filter interaction block, one row at a time, on the extended reals.

  Every dense layer of the block acts on a row of its input alone: entry `q` of `row · w` is `∑ k, row k * w (k, q)`
  (`rowMat`), and the two-layer perceptrons of the block — the filter network on an edge's radial features, and the
  closing `tanh`/linear pair on a node's aggregated features — are `tanh (row · w₁ + b₁) · w₂ + b₂` (`mlp`).
  A matrix product computed block of rows by block of rows is therefore the same function of the whole array as the
  product computed at once; `contraction_row` reads a two-dimensional contraction at an index as `rowMat`.
  The one algebraic law the block needs is that a product of three extended reals may be regrouped and reordered
  (`mul_regroup`): multiplication there is commutative and associative, infinities included.
-/
import Idealize.ShloMosaic.PureOps.Ideal
import Idealize.ShloMosaic.PureOps.Ideal.Laws
import Idealize.ShloMosaic.Lib.ValueIdx

noncomputable section

namespace Cert.Schnet

open Idealize.ShloMosaic Idealize.ShloMosaic.ValueIdx

/-- Entry `q` of the product of a row vector of length `K` with a `K × M` matrix. -/
def rowMat {K M : Nat} (row : Fin K → EReal) (w : (⟨2, ![K, M]⟩ : Shape).Idx → EReal) (q : Fin M) : EReal :=
  ∑ k : Fin K, row k * w (ix2 k q)

/-- Entry `q` of a two-layer perceptron applied to one row: `tanh (row · w₁ + b₁) · w₂ + b₂`. -/
def mlp {K H M : Nat} (row : Fin K → EReal) (w₁ : (⟨2, ![K, H]⟩ : Shape).Idx → EReal) (b₁ : Fin H → EReal)
    (w₂ : (⟨2, ![H, M]⟩ : Shape).Idx → EReal) (b₂ : Fin M → EReal) (q : Fin M) : EReal :=
  rowMat (fun j => Ideal.tanh (rowMat row w₁ j + b₁ j)) w₂ q + b₂ q

/-- `rowMat` depends on the row only through its entries. -/
theorem rowMat_congr {K M : Nat} {row row' : Fin K → EReal} (h : ∀ k, row k = row' k)
    (w : (⟨2, ![K, M]⟩ : Shape).Idx → EReal) (q : Fin M) : rowMat row w q = rowMat row' w q := by
  rw [show row = row' from funext h]

/-- `mlp` depends on the row and on the two bias vectors only through their entries. -/
theorem mlp_congr {K H M : Nat} {row row' : Fin K → EReal} (h : ∀ k, row k = row' k)
    (w₁ : (⟨2, ![K, H]⟩ : Shape).Idx → EReal) {b₁ b₁' : Fin H → EReal} (h₁ : ∀ j, b₁ j = b₁' j)
    (w₂ : (⟨2, ![H, M]⟩ : Shape).Idx → EReal) {b₂ b₂' : Fin M → EReal} (h₂ : ∀ j, b₂ j = b₂' j) (q : Fin M) :
    mlp row w₁ b₁ w₂ b₂ q = mlp row' w₁ b₁' w₂ b₂' q := by
  rw [show row = row' from funext h, show b₁ = b₁' from funext h₁, show b₂ = b₂' from funext h₂]

/-- A weight times (a cutoff times a feature) is the feature times (the weight times the cutoff): multiplication
    on the extended reals is commutative and associative, so no finiteness is needed. -/
theorem mul_regroup (w c h : EReal) : w * (c * h) = h * (w * c) := by
  rw [mul_comm h, mul_assoc]

/-- A contraction over one axis of extent `K`, re-indexed by that axis's coordinate. -/
theorem contr_sum {sl sr so : Shape} (D : DotDims sl sr so) (K : Nat) (hr : D.contr.rank = 1)
    (hs : D.contr.size ⟨0, by omega⟩ = K) (f : D.contr.Idx → EReal) :
    ∑ c : D.contr.Idx, f c = ∑ k : Fin K, f ((contrEquiv1 D K hr hs).symm k) :=
  (Equiv.sum_comp (contrEquiv1 D K hr hs).symm f).symm

/-- A plain two-dimensional contraction `[n, K] × [K, M] → [n, M]` read at `(p, q)`: the left operand's row `p`
    against the right operand's column `q`. The four hypotheses say where the dimension numbers send an output
    index and a contraction position: left `(p, k)`, right `(k, q)`. -/
theorem contraction_row {n K M : Nat} (D : DotDims ⟨2, ![n, K]⟩ ⟨2, ![K, M]⟩ ⟨2, ![n, M]⟩)
    (hr : D.contr.rank = 1) (hs : D.contr.size ⟨0, by omega⟩ = K)
    (hl0 : ∀ i c, (D.lhsIdx i c 0).val = (i 0).val) (hl1 : ∀ i c, (D.lhsIdx i c 1).val = (c ⟨0, by omega⟩).val)
    (hr0 : ∀ i c, (D.rhsIdx i c 0).val = (c ⟨0, by omega⟩).val) (hr1 : ∀ i c, (D.rhsIdx i c 1).val = (i 1).val)
    (a : (⟨2, ![n, K]⟩ : Shape).Idx → EReal) (b : (⟨2, ![K, M]⟩ : Shape).Idx → EReal) (p : Fin n) (q : Fin M) :
    ∑ c : D.contr.Idx, a (D.lhsIdx (ix2 p q) c) * b (D.rhsIdx (ix2 p q) c) = rowMat (fun k => a (ix2 p k)) b q := by
  unfold rowMat
  rw [contr_sum D K hr hs]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The same for any dimension numbers of the plain kind — left axis 1 against right axis 0, no batch axis —,
    whatever record spells them: the record's six lists decide where an output index and a contraction position go. -/
theorem contraction_row_plain {n K M : Nat} (D : DotDims ⟨2, ![n, K]⟩ ⟨2, ![K, M]⟩ ⟨2, ![n, M]⟩)
    (h1 : D.lhsContracting = [1]) (h2 : D.rhsContracting = [0]) (h3 : D.lhsNonContracting = [0])
    (h4 : D.rhsNonContracting = [1]) (h5 : D.lhsBatch = []) (h6 : D.rhsBatch = [])
    (a : (⟨2, ![n, K]⟩ : Shape).Idx → EReal) (b : (⟨2, ![K, M]⟩ : Shape).Idx → EReal) (p : Fin n) (q : Fin M) :
    ∑ c : D.contr.Idx, a (D.lhsIdx (ix2 p q) c) * b (D.rhsIdx (ix2 p q) c) = rowMat (fun k => a (ix2 p k)) b q := by
  obtain ⟨lc, rc, ln, rn, lb, rb, wf⟩ := D
  dsimp only at h1 h2 h3 h4 h5 h6
  subst h1 h2 h3 h4 h5 h6
  refine contraction_row _ rfl rfl (fun i c => ?_) (fun i c => ?_) (fun i c => ?_) (fun i c => ?_) a b p q
  · unfold DotDims.lhsIdx
    rw [dif_neg (fun h => absurd h List.not_mem_nil), dif_pos (List.mem_singleton.mpr rfl)]
    rfl
  · exact DotDims.lhsIdx_val_of_single _ rfl i c
  · exact DotDims.rhsIdx_val_of_single _ rfl i c
  · unfold DotDims.rhsIdx
    rw [dif_neg (fun h => absurd h List.not_mem_nil), dif_pos (List.mem_singleton.mpr rfl)]
    rfl

end Cert.Schnet

end
-- ==== Proof.RefRows.lean ====
/-
  The reference program's three dense stages, read one row at a time.

  Each of the stages below is a chain of a matrix product, a bias broadcast along the rows, an addition and
  (for the two-layer ones) a hyperbolic tangent and a second such layer. Read at the index `(r, q)`, a matrix
  product is the sum over `k` of the left operand at `(r, k)` times the right operand at `(k, q)`, and a bias
  broadcast is the bias vector at `q`; so the stage at `(r, q)` is `rowMat` / `mlp` of row `r` of its input.
  The only work is to identify the index maps of the stages with the coordinate-built indices `ix1`, `ix2`.
-/
import proofs.«155930_j31559419691086_2_alg».proof.Proof.Gen.ReferenceIdeal.Read
import proofs.«155930_j31559419691086_2_alg».proof.Proof.Spec

noncomputable section

namespace Cert.ReferenceIdeal.Rows

open Cert.ReferenceIdeal Cert.ReferenceIdeal.Read Cert.Schnet Idealize.ShloMosaic Idealize.ShloMosaic.ValueIdx

/-- The node features times the first linear layer's weights, at `(r, q)`: row `r` against column `q`. -/
theorem lin1_ref (x0 : (⟨S20000x128, .f32⟩ : BufTy).Contents (Elt Ideal)) (x6 : (⟨S128x128, .f32⟩ : BufTy).Contents (Elt Ideal)) (r : Fin 20000) (q : Fin 128) :
    val_main_v25 (F := Ideal) x0 x6 (ix2 r q) = rowMat (fun k => x0 (ix2 r k)) x6 q := by
  unfold rowMat
  rw [val_main_v25_apply]
  refine Finset.sum_congr rfl fun k _ => ?_
  have el : lidx_main_v25 (ix2 r q) k = ix2 r k := funext fun a => Fin.ext (by match a with | ⟨0, _⟩ => rfl | ⟨1, _⟩ => rfl)
  have er : ridx_main_v25 (ix2 r q) k = ix2 k q := funext fun a => Fin.ext (by match a with | ⟨0, _⟩ => rfl | ⟨1, _⟩ => rfl)
  rw [el, er]

/-- The filter network `tanh (ea · w₁ + b₁) · w₂ + b₂` at `(e, q)`: the perceptron of row `e` of the edge features. -/
theorem filter_ref (x3 : (⟨S640000x64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 640000) (q : Fin 128) :
    val_main_v21 (F := Ideal) x3 x7 x8 x9 x10 (ix2 e q)
      = mlp (fun k => x3 (ix2 e k)) x7 (fun j => x8 (ix1 j)) x9 (fun j => x10 (ix1 j)) q := by
  -- the hidden layer at `(e, j)`
  have hid : ∀ j : Fin 128, val_main_v17 (F := Ideal) x3 x7 x8 (ix2 e j)
      = Ideal.tanh ((∑ k : Fin 64, x3 (ix2 e k) * x7 (ix2 k j)) + x8 (ix1 j)) := fun j => by
    rw [val_main_v17_apply, val_main_v16_apply, val_main_v13_apply, val_main_v15_apply, val_main_v14_apply,
      Ideal.hostUnary_tanh_def, Ideal.addf_def]
    have eb : idx_main_v14 (idx_main_v15 (ix2 e j)) = ix1 j := funext fun a => Fin.ext (by match a with | ⟨0, _⟩ => rfl)
    rw [eb]
    congr 2
    refine Finset.sum_congr rfl fun k _ => ?_
    have el : lidx_main_v13 (ix2 e j) k = ix2 e k := funext fun a => Fin.ext (by match a with | ⟨0, _⟩ => rfl | ⟨1, _⟩ => rfl)
    have er : ridx_main_v13 (ix2 e j) k = ix2 k j := funext fun a => Fin.ext (by match a with | ⟨0, _⟩ => rfl | ⟨1, _⟩ => rfl)
    rw [el, er]
  unfold mlp rowMat
  rw [val_main_v21_apply, val_main_v18_apply, val_main_v20_apply, val_main_v19_apply, Ideal.addf_def]
  have eb : idx_main_v19 (idx_main_v20 (ix2 e q)) = ix1 q := funext fun a => Fin.ext (by match a with | ⟨0, _⟩ => rfl)
  rw [eb]
  refine congrArg (fun s => s + x10 (ix1 q)) (Finset.sum_congr rfl fun j _ => ?_)
  have el : lidx_main_v18 (ix2 e q) j = ix2 e j := funext fun a => Fin.ext (by match a with | ⟨0, _⟩ => rfl | ⟨1, _⟩ => rfl)
  have er : ridx_main_v18 (ix2 e q) j = ix2 j q := funext fun a => Fin.ext (by match a with | ⟨0, _⟩ => rfl | ⟨1, _⟩ => rfl)
  rw [el, er, hid j]

/-- The closing pair `tanh (h · w₁ + b₁) · w₂ + b₂` at `(r, q)`: the perceptron of row `r` of the aggregated
    features `h` (the stage before it, which is left as it is). -/
theorem final_ref (x0 : (⟨S20000x128, .f32⟩ : BufTy).Contents (Elt Ideal)) (x1 : (⟨S2x640000, .i32⟩ : BufTy).Contents (Elt Ideal)) (x2 : (⟨S640000, .f32⟩ : BufTy).Contents (Elt Ideal)) (x3 : (⟨S640000x64, .f32⟩ : BufTy).Contents (Elt Ideal)) (x4 : (⟨S20000, .i32⟩ : BufTy).Contents (Elt Ideal)) (x5 : (⟨S2x39996, .i32⟩ : BufTy).Contents (Elt Ideal)) (x6 : (⟨S128x128, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S3x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (r : Fin 20000) (q : Fin 128) :
    val_main_v99 (F := Ideal) x0 x1 x2 x3 x4 x5 x6 x7 x8 x9 x10 x11 x12 x13 x14 x15 (ix2 r q)
      = mlp (fun k => val_main_v90 (F := Ideal) x0 x1 x2 x3 x4 x5 x6 x7 x8 x9 x10 x11 (ix2 r k)) x12 (fun j => x13 (ix1 j)) x14
          (fun j => x15 (ix1 j)) q := by
  -- the hidden layer at `(r, j)`
  have hid : ∀ j : Fin 128, val_main_v95 (F := Ideal) x0 x1 x2 x3 x4 x5 x6 x7 x8 x9 x10 x11 x12 x13 (ix2 r j)
      = Ideal.tanh ((∑ k : Fin 128, val_main_v90 (F := Ideal) x0 x1 x2 x3 x4 x5 x6 x7 x8 x9 x10 x11 (ix2 r k) * x12 (ix2 k j)) + x13 (ix1 j)) := fun j => by
    rw [val_main_v95_apply, val_main_v94_apply, val_main_v91_apply, val_main_v93_apply, val_main_v92_apply,
      Ideal.hostUnary_tanh_def, Ideal.addf_def]
    generalize val_main_v90 (F := Ideal) x0 x1 x2 x3 x4 x5 x6 x7 x8 x9 x10 x11 = h
    have eb : idx_main_v92 (idx_main_v93 (ix2 r j)) = ix1 j := funext fun a => Fin.ext (by match a with | ⟨0, _⟩ => rfl)
    rw [eb]
    congr 2
    refine Finset.sum_congr rfl fun k _ => ?_
    have el : lidx_main_v91 (ix2 r j) k = ix2 r k := funext fun a => Fin.ext (by match a with | ⟨0, _⟩ => rfl | ⟨1, _⟩ => rfl)
    have er : ridx_main_v91 (ix2 r j) k = ix2 k j := funext fun a => Fin.ext (by match a with | ⟨0, _⟩ => rfl | ⟨1, _⟩ => rfl)
    rw [el, er]
  unfold mlp rowMat
  rw [val_main_v99_apply, val_main_v96_apply, val_main_v98_apply, val_main_v97_apply, Ideal.addf_def]
  have eb : idx_main_v97 (idx_main_v98 (ix2 r q)) = ix1 q := funext fun a => Fin.ext (by match a with | ⟨0, _⟩ => rfl)
  rw [eb]
  refine congrArg (fun s => s + x15 (ix1 q)) (Finset.sum_congr rfl fun j _ => ?_)
  have el : lidx_main_v96 (ix2 r q) j = ix2 r j := funext fun a => Fin.ext (by match a with | ⟨0, _⟩ => rfl | ⟨1, _⟩ => rfl)
  have er : ridx_main_v96 (ix2 r q) j = ix2 j q := funext fun a => Fin.ext (by match a with | ⟨0, _⟩ => rfl | ⟨1, _⟩ => rfl)
  rw [el, er, hid j]

end Cert.ReferenceIdeal.Rows

end
-- ==== Proof.Payload.lean ====
/-
  What each of the three kernel bodies stores, read at one entry `(p, q)` of its block of rows.

  Each body loads whole blocks, computes, and stores one whole block; on the extended reals a change of float format
  is the identity, so what is stored is, entry by entry:
  * the first body: row `p` of the feature block times the weight matrix (`lin1_entry`);
  * the second body: the filter perceptron of row `p` of the radial features, times the gathered, cutoff-scaled
    feature at `(p, q)` (`filter_entry`);
  * the third body: the closing perceptron of row `p` of the sum of the two aggregated feature blocks
    (`final_entry`).
  A matrix product into a zero accumulator is the plain sum over the contracted axis; a bias held as a `1 × 128`
  block and broadcast down the rows is read at its one row.
-/
import proofs.«155930_j31559419691086_2_alg».proof.Proof.Gen.KernelIdeal.Skeleton
import proofs.«155930_j31559419691086_2_alg».proof.Proof.Spec
import Idealize.ShloMosaic.Lib.Pipeline.Value
import Idealize.ShloMosaic.Lib.ValueLayout

noncomputable section

namespace Cert.KernelIdeal.Rows

open Cert.KernelIdeal Cert.KernelIdeal.Gen Cert.Schnet Idealize.ShloMosaic Idealize.ShloMosaic.ValueIdx

/-- `tanh` of a vector, read at an index. -/
theorem tanh_apply {s : Shape} {φ : FTy} (a : FVec Ideal s φ) (i : s.Idx) : tanh a i = Ideal.tanh (a i) := rfl

/-- Rounding to a narrower format is the identity on the extended reals. -/
theorem truncf_fun {s : Shape} {φ ψ : FTy} (a : FVec Ideal s φ) (h : ψ.bits < φ.bits) :
    (truncf ψ a h : FVec Ideal s ψ) = a := rfl

/-- A block of 2000 rows times a `128 × 128` matrix, accumulated from zero, at `(p, q)`. -/
theorem matmul_2000 (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = rowMat (fun k => a (ix2 p k)) b q :=
  (Ideal.matmul_constant_zero_apply dot_S2000x128_S128x128_S2000x128_1_0_0_1_n_n none a b (ix2 p q)).trans
    (contraction_row_plain dot_S2000x128_S128x128_S2000x128_1_0_0_1_n_n rfl rfl rfl rfl rfl rfl a b p q)

/-- A block of 6400 rows of 64 radial features times a `64 × 128` matrix, accumulated from zero, at `(p, q)`. -/
theorem matmul_6400x64 (a : FVec Ideal S6400x64 .bf16) (b : FVec Ideal S64x128 .bf16) (p : Fin 6400) (q : Fin 128) :
    matmul dot_S6400x64_S64x128_S6400x128_1_0_0_1_n_n none a b (constant S6400x128 .f32 0x00000000#32) (ix2 p q)
      = rowMat (fun k => a (ix2 p k)) b q :=
  (Ideal.matmul_constant_zero_apply dot_S6400x64_S64x128_S6400x128_1_0_0_1_n_n none a b (ix2 p q)).trans
    (contraction_row_plain dot_S6400x64_S64x128_S6400x128_1_0_0_1_n_n rfl rfl rfl rfl rfl rfl a b p q)

/-- A block of 6400 rows times a `128 × 128` matrix, accumulated from zero, at `(p, q)`. -/
theorem matmul_6400x128 (a : FVec Ideal S6400x128 .bf16) (b : FVec Ideal S128x128 .bf16) (p : Fin 6400) (q : Fin 128) :
    matmul dot_S6400x128_S128x128_S6400x128_1_0_0_1_n_n none a b (constant S6400x128 .f32 0x00000000#32) (ix2 p q)
      = rowMat (fun k => a (ix2 p k)) b q :=
  (Ideal.matmul_constant_zero_apply dot_S6400x128_S128x128_S6400x128_1_0_0_1_n_n none a b (ix2 p q)).trans
    (contraction_row_plain dot_S6400x128_S128x128_S6400x128_1_0_0_1_n_n rfl rfl rfl rfl rfl rfl a b p q)

/-- The first body stores, at `(p, q)`, row `p` of its feature block times the weight matrix. -/
theorem lin1_entry (x : Vec Ideal S2000x128 .f32) (w : Vec Ideal S128x128 .f32) (p : Fin 2000) (q : Fin 128) :
    k0_pay1 x w (ix2 p q) = rowMat (fun k => x (ix2 p k)) w q := by
  unfold k0_pay1
  simp only [matmul_2000, truncf_apply, truncf_fun]

/-- The second body stores, at `(p, q)`, the filter perceptron of row `p` of the radial features — weights `w₁`,
    `w₂`, each bias a `1 × 128` block — times the gathered feature `hg (p, q)`. -/
theorem filter_entry (ea : Vec Ideal S6400x64 .f32) (w₁ : Vec Ideal S64x128 .f32) (b₁ : Vec Ideal S1x128 .f32)
    (w₂ : Vec Ideal S128x128 .f32) (b₂ : Vec Ideal S1x128 .f32) (hg : Vec Ideal S6400x128 .bf16) (p : Fin 6400) (q : Fin 128) :
    k1_pay1 ea w₁ b₁ w₂ b₂ hg (ix2 p q)
      = mlp (fun k => ea (ix2 p k)) w₁ (fun j => b₁ (ix2 0 j)) w₂ (fun j => b₂ (ix2 0 j)) q * hg (ix2 p q) := by
  unfold k1_pay1 mlp
  simp only [truncf_apply, extf_apply, mulf_apply, addf_apply, tanh_apply, matmul_6400x128, matmul_6400x64,
    broadcastTo_1b_ab_apply, shapeCast_self, truncf_fun]

/-- The third body stores, at `(p, q)`, the closing perceptron of row `p` of the sum of its two feature blocks. -/
theorem final_entry (a s : Vec Ideal S2000x128 .f32) (w₁ : Vec Ideal S128x128 .f32) (b₁ : Vec Ideal S1x128 .f32)
    (w₂ : Vec Ideal S128x128 .f32) (b₂ : Vec Ideal S1x128 .f32) (p : Fin 2000) (q : Fin 128) :
    k2_pay1 a s w₁ b₁ w₂ b₂ (ix2 p q)
      = mlp (fun k => a (ix2 p k) + s (ix2 p k)) w₁ (fun j => b₁ (ix2 0 j)) w₂ (fun j => b₂ (ix2 0 j)) q := by
  unfold k2_pay1 mlp
  simp only [truncf_apply, addf_apply, tanh_apply, matmul_2000, broadcastTo_1b_ab_apply, shapeCast_self, truncf_fun]

end Cert.KernelIdeal.Rows

end
-- ==== Proof.Lin1.lean ====
/-
  The first region as one function of its arrays: node features times the first weight matrix.

  The region walks the 20000 feature rows in ten blocks of 2000; at point `t` it reads rows `2000 t … 2000 t + 1999`
  and the whole `128 × 128` weight matrix, and writes back the product of the two as rows `2000 t …` of its result.
  Row `r` of a matrix product depends on row `r` of the left factor alone, so what point `t` writes back is block `t`
  of the product of the WHOLE feature array with the weights (`lin1_flushed`); the ten blocks cover the result
  (`lin1_cover`), which therefore ends as that product (`lin1_array`) — whatever the region finds in its arrays.
-/
import proofs.«155930_j31559419691086_2_alg».proof.Proof.Gen.KernelIdeal.Frame
import proofs.«155930_j31559419691086_2_alg».proof.Proof.Payload

noncomputable section

namespace Cert.KernelIdeal.Rows

open Cert.KernelIdeal Cert.KernelIdeal.Gen Cert.Schnet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Node features `x` times the weight matrix `w`, entry by entry. -/
def lin1 (x : S20000x128.Idx → EReal) (w : S128x128.Idx → EReal) : S20000x128.Idx → EReal :=
  fun i => rowMat (fun k => x (ix2 (i 0) k)) w (i 1)

/-- Where the three windows sit at point `t`: features and result at row block `t`, the weights whole. -/
theorem lin1_points : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` holds rows `2000 t + p` of the feature array. -/
theorem lin1_rows (c : Dev nD) (t : Fin cfg0.N) (p : Fin 2000) (k : Fin 128) (r : Fin 20000) (hr : r.val = 2000 * t.val + p.val) :
    (iblk0 V c 0 t : S2000x128.Idx → EReal) (ix2 p k) = (V c main_arg0 : S20000x128.Idx → EReal) (ix2 r k) := by
  obtain ⟨e0, e1, -⟩ := lin1_points t
  unfold iblk0
  rw [View.read_apply]
  show (V c main_arg0 : S20000x128.Idx → EReal) _ = _
  refine congrArg _ (funext fun a => Fin.ext ?_)
  match a with
  | ⟨0, _⟩ => show win0_0.index t 0 * 2000 + 1 * p.val = r.val; rw [e0, hr]; omega
  | ⟨1, _⟩ => show win0_0.index t 1 * 128 + 1 * k.val = k.val; rw [e1]; omega

/-- The weight window's block is the whole weight matrix at every point. -/
theorem lin1_weights (c : Dev nD) (t : Fin cfg0.N) :
    (iblk0 V c 1 t : S128x128.Idx → EReal) = (V c main_arg6 : S128x128.Idx → EReal) := by
  obtain ⟨-, -, e2, e3, -⟩ := lin1_points t
  funext y
  unfold iblk0
  rw [View.read_apply]
  show (V c main_arg6 : S128x128.Idx → EReal) _ = _
  refine congrArg _ (funext fun a => Fin.ext ?_)
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point `t` writes back is block `t` of the product of the whole feature array with the weights. -/
theorem lin1_flushed (c : Dev nD) (t : Fin cfg0.N) :
    (dat0 V c).flushed 2 t = ((cfg0.win 2).blk t).view.read (Elt Ideal) (lin1 (V c main_arg0) (V c main_arg6)) := by
  obtain ⟨-, -, -, -, e4, e5⟩ := lin1_points t
  have hN : t.val < 10 := by have h := t.isLt; have e : cfg0.N = 10 := N_0; omega
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  funext j
  obtain ⟨p, q, rfl⟩ : ∃ (p : Fin 2000) (q : Fin 128), j = ix2 p q := ⟨j 0, j 1, eq_ix2 j⟩
  have he : ((cfg0.win 2).blk t).view.emb (ix2 p q) = (ix2 (⟨2000 * t.val + p.val, by omega⟩ : Fin 20000) q : S20000x128.Idx) :=
    funext fun a => Fin.ext (by
      match a with
      | ⟨0, _⟩ => show win0_2.index t 0 * 2000 + 1 * p.val = 2000 * t.val + p.val; rw [e4]; omega
      | ⟨1, _⟩ => show win0_2.index t 1 * 128 + 1 * q.val = q.val; rw [e5]; omega)
  show k0_pay1 (iblk0 V c 0 t) (iblk0 V c 1 t) (ix2 p q) = lin1 (V c main_arg0) (V c main_arg6) (((cfg0.win 2).blk t).view.emb (ix2 p q))
  rw [he]
  refine (lin1_entry (iblk0 V c 0 t) (iblk0 V c 1 t) p q).trans ?_
  rw [lin1_weights V c t]
  exact rowMat_congr (fun k => lin1_rows V c t p k _ rfl) _ q

/-- Every row of the result lies in the block of the point that owns it. -/
theorem lin1_cover (i : S20000x128.Idx) : ∃ t : Fin cfg0.N, (cfg0.win 2).flush t = true ∧ i ∈ ((cfg0.win 2).blk t).view.set := by
  have h0 : (i 0).val < 20000 := (i 0).isLt
  have h1 : (i 1).val < 128 := (i 1).isLt
  have hN : cfg0.N = 10 := N_0
  let t : Fin cfg0.N := ⟨(i 0).val / 2000, by rw [hN]; omega⟩
  obtain ⟨-, -, -, -, e4, e5⟩ := lin1_points t
  refine ⟨t, flush0_2 t, ?_⟩
  show i ∈ ((View.whole main_v0).slice (win0_2.rect t)).set
  rw [View.set_slice_whole, Rect.mem_set_unit]
  intro a
  match a with
  | ⟨0, _⟩ => show win0_2.index t 0 * 2000 ≤ (i 0).val ∧ (i 0).val < win0_2.index t 0 * 2000 + 2000
              rw [e4]; show (i 0).val / 2000 * 2000 ≤ (i 0).val ∧ (i 0).val < (i 0).val / 2000 * 2000 + 2000; omega
  | ⟨1, _⟩ => show win0_2.index t 1 * 128 ≤ (i 1).val ∧ (i 1).val < win0_2.index t 1 * 128 + 128
              rw [e5]; omega

/-- The first region's result array ends as the feature array times the weights, whatever the region found. -/
theorem lin1_array (c : Dev nD) :
    (dat0 V c).arrAt 2 cfg0.N = lin1 (V c main_arg0) (V c main_arg6) :=
  (dat0 V c).arrAt_eq_of_cover 2 (lin1 (V c main_arg0) (V c main_arg6)) (fun t _ => lin1_flushed V c t) (lin1_cover)

end Cert.KernelIdeal.Rows

end
-- ==== Proof.Filter.lean ====
/-
  The second region as one function of its arrays: the filter network on every edge, times the gathered feature.

  The region walks the 640000 edges in a hundred blocks of 6400. At point `t` it reads rows `6400 t …` of the radial
  features and of the gathered, cutoff-scaled node features, and the two weight matrices and two `1 × 128` biases whole;
  it writes back, as rows `6400 t …` of its result, the filter perceptron of each radial row times the gathered row,
  entry by entry. Each result row depends on the same row of the two edge arrays alone, so point `t` writes block `t` of
  one function of the WHOLE arrays (`filt_flushed`); the hundred blocks cover the result (`filt_cover`), which ends
  as that function (`filt_array`) — whatever the region finds in its arrays.
-/
import proofs.«155930_j31559419691086_2_alg».proof.Proof.Gen.KernelIdeal.Frame
import proofs.«155930_j31559419691086_2_alg».proof.Proof.Payload

noncomputable section

namespace Cert.KernelIdeal.Rows

open Cert.KernelIdeal Cert.KernelIdeal.Gen Cert.Schnet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- Per edge `e` and channel `q`: the filter perceptron of the edge's radial features, times the gathered feature. -/
def filt (ea : S640000x64.Idx → EReal) (hg : S640000x128.Idx → EReal) (w₁ : S64x128.Idx → EReal) (b₁ : S1x128.Idx → EReal)
    (w₂ : S128x128.Idx → EReal) (b₂ : S1x128.Idx → EReal) : S640000x128.Idx → EReal :=
  fun i => mlp (fun k => ea (ix2 (i 0) k)) w₁ (fun j => b₁ (ix2 0 j)) w₂ (fun j => b₂ (ix2 0 j)) (i 1) * hg (ix2 (i 0) (i 1))

/-- Where the seven windows sit at point `t`: the two edge arrays and the result at row block `t`, the weights and
    biases whole. -/
theorem filt_points : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The radial-feature window's block at point `t` holds rows `6400 t + p` of the radial features. -/
theorem filt_ea_rows (c : Dev nD) (t : Fin cfg1.N) (p : Fin 6400) (k : Fin 64) (r : Fin 640000) (hr : r.val = 6400 * t.val + p.val) :
    (iblk1 V c 0 t : S6400x64.Idx → EReal) (ix2 p k) = (V c main_arg3 : S640000x64.Idx → EReal) (ix2 r k) := by
  obtain ⟨e0, e1, -⟩ := filt_points t
  unfold iblk1
  rw [View.read_apply]
  show (V c main_arg3 : S640000x64.Idx → EReal) _ = _
  refine congrArg _ (funext fun a => Fin.ext ?_)
  match a with
  | ⟨0, _⟩ => show win1_0.index t 0 * 6400 + 1 * p.val = r.val; rw [e0, hr]; omega
  | ⟨1, _⟩ => show win1_0.index t 1 * 64 + 1 * k.val = k.val; rw [e1]; omega

/-- The gathered-feature window's block at point `t` holds rows `6400 t + p` of the gathered features. -/
theorem filt_hg_rows (c : Dev nD) (t : Fin cfg1.N) (p : Fin 6400) (k : Fin 128) (r : Fin 640000) (hr : r.val = 6400 * t.val + p.val) :
    (iblk1 V c 1 t : S6400x128.Idx → EReal) (ix2 p k) = (V c main_v28 : S640000x128.Idx → EReal) (ix2 r k) := by
  obtain ⟨-, -, e0, e1, -⟩ := filt_points t
  unfold iblk1
  rw [View.read_apply]
  show (V c main_v28 : S640000x128.Idx → EReal) _ = _
  refine congrArg _ (funext fun a => Fin.ext ?_)
  match a with
  | ⟨0, _⟩ => show win1_1.index t 0 * 6400 + 1 * p.val = r.val; rw [e0, hr]; omega
  | ⟨1, _⟩ => show win1_1.index t 1 * 128 + 1 * k.val = k.val; rw [e1]; omega

/-- The first weight window's block is the whole `64 × 128` matrix at every point. -/
theorem filt_w1 (c : Dev nD) (t : Fin cfg1.N) :
    (iblk1 V c 2 t : S64x128.Idx → EReal) = (V c main_arg7 : S64x128.Idx → EReal) := by
  obtain ⟨-, -, -, -, e0, e1, -⟩ := filt_points t
  funext y
  unfold iblk1
  rw [View.read_apply]
  show (V c main_arg7 : S64x128.Idx → EReal) _ = _
  refine congrArg _ (funext fun a => Fin.ext ?_)
  match a with
  | ⟨0, _⟩ => show win1_2.index t 0 * 64 + 1 * (y 0).val = (y 0).val; rw [e0]; omega
  | ⟨1, _⟩ => show win1_2.index t 1 * 128 + 1 * (y 1).val = (y 1).val; rw [e1]; omega

/-- The first bias window's block is the whole `1 × 128` bias at every point. -/
theorem filt_b1 (c : Dev nD) (t : Fin cfg1.N) :
    (iblk1 V c 3 t : S1x128.Idx → EReal) = (V c main_v29 : S1x128.Idx → EReal) := by
  obtain ⟨-, -, -, -, -, -, e0, e1, -⟩ := filt_points t
  funext y
  unfold iblk1
  rw [View.read_apply]
  show (V c main_v29 : S1x128.Idx → EReal) _ = _
  refine congrArg _ (funext fun a => Fin.ext ?_)
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The second weight window's block is the whole `128 × 128` matrix at every point. -/
theorem filt_w2 (c : Dev nD) (t : Fin cfg1.N) :
    (iblk1 V c 4 t : S128x128.Idx → EReal) = (V c main_arg9 : S128x128.Idx → EReal) := by
  obtain ⟨-, -, -, -, -, -, -, -, e0, e1, -⟩ := filt_points t
  funext y
  unfold iblk1
  rw [View.read_apply]
  show (V c main_arg9 : S128x128.Idx → EReal) _ = _
  refine congrArg _ (funext fun a => Fin.ext ?_)
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The second bias window's block is the whole `1 × 128` bias at every point. -/
theorem filt_b2 (c : Dev nD) (t : Fin cfg1.N) :
    (iblk1 V c 5 t : S1x128.Idx → EReal) = (V c main_v30 : S1x128.Idx → EReal) := by
  obtain ⟨-, -, -, -, -, -, -, -, -, -, e0, e1, -⟩ := filt_points t
  funext y
  unfold iblk1
  rw [View.read_apply]
  show (V c main_v30 : S1x128.Idx → EReal) _ = _
  refine congrArg _ (funext fun a => Fin.ext ?_)
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- What point `t` writes back is block `t` of `filt` of the whole arrays. -/
theorem filt_flushed (c : Dev nD) (t : Fin cfg1.N) :
    (dat1 V c).flushed 6 t = ((cfg1.win 6).blk t).view.read (Elt Ideal)
      (filt (V c main_arg3) (V c main_v28) (V c main_arg7) (V c main_v29) (V c main_arg9) (V c main_v30)) := by
  obtain ⟨-, -, -, -, -, -, -, -, -, -, -, -, e4, e5⟩ := filt_points t
  have hN : t.val < 100 := by have h := t.isLt; have e : cfg1.N = 100 := N_1; omega
  show (cfg1.win 6).cut (grid1.coords t) ((dat1 V c).after 6 t) = _
  rw [after1_6]
  unfold out1_6
  rw [View.canon_unit_zero zero_offsets']
  simp only [View.ld_unit_zero (S := S6400x64) zero_offsets', View.ld_unit_zero (S := S6400x128) zero_offsets',
    View.ld_unit_zero (S := S64x128) zero_offsets', View.ld_unit_zero (S := S1x128) zero_offsets',
    View.ld_unit_zero (S := S128x128) zero_offsets']
  funext j
  obtain ⟨p, q, rfl⟩ : ∃ (p : Fin 6400) (q : Fin 128), j = ix2 p q := ⟨j 0, j 1, eq_ix2 j⟩
  have hr : 6400 * t.val + p.val < 640000 := by omega
  have he : ((cfg1.win 6).blk t).view.emb (ix2 p q) = (ix2 (⟨6400 * t.val + p.val, hr⟩ : Fin 640000) q : S640000x128.Idx) :=
    funext fun a => Fin.ext (by
      match a with
      | ⟨0, _⟩ => show win1_6.index t 0 * 6400 + 1 * p.val = 6400 * t.val + p.val; rw [e4]; omega
      | ⟨1, _⟩ => show win1_6.index t 1 * 128 + 1 * q.val = q.val; rw [e5]; omega)
  show k1_pay1 (iblk1 V c 0 t) (iblk1 V c 2 t) (iblk1 V c 3 t) (iblk1 V c 4 t) (iblk1 V c 5 t) (iblk1 V c 1 t) (ix2 p q)
    = filt (V c main_arg3) (V c main_v28) (V c main_arg7) (V c main_v29) (V c main_arg9) (V c main_v30) (((cfg1.win 6).blk t).view.emb (ix2 p q))
  rw [he]
  refine (filter_entry (iblk1 V c 0 t) (iblk1 V c 2 t) (iblk1 V c 3 t) (iblk1 V c 4 t) (iblk1 V c 5 t) (iblk1 V c 1 t) p q).trans ?_
  rw [filt_w1 V c t, filt_b1 V c t, filt_w2 V c t, filt_b2 V c t, filt_hg_rows V c t p q ⟨6400 * t.val + p.val, hr⟩ rfl]
  exact congrArg (· * _) (mlp_congr (fun k => filt_ea_rows V c t p k ⟨6400 * t.val + p.val, hr⟩ rfl) _ (fun _ => rfl) _ (fun _ => rfl) q)

/-- Every edge row of the result lies in the block of the point that owns it. -/
theorem filt_cover (i : S640000x128.Idx) : ∃ t : Fin cfg1.N, (cfg1.win 6).flush t = true ∧ i ∈ ((cfg1.win 6).blk t).view.set := by
  have h0 : (i 0).val < 640000 := (i 0).isLt
  have h1 : (i 1).val < 128 := (i 1).isLt
  have hN : cfg1.N = 100 := N_1
  let t : Fin cfg1.N := ⟨(i 0).val / 6400, by rw [hN]; omega⟩
  obtain ⟨-, -, -, -, -, -, -, -, -, -, -, -, e4, e5⟩ := filt_points t
  refine ⟨t, flush1_6 t, ?_⟩
  show i ∈ ((View.whole main_v31).slice (win1_6.rect t)).set
  rw [View.set_slice_whole, Rect.mem_set_unit]
  intro a
  match a with
  | ⟨0, _⟩ => show win1_6.index t 0 * 6400 ≤ (i 0).val ∧ (i 0).val < win1_6.index t 0 * 6400 + 6400
              rw [e4]; show (i 0).val / 6400 * 6400 ≤ (i 0).val ∧ (i 0).val < (i 0).val / 6400 * 6400 + 6400; omega
  | ⟨1, _⟩ => show win1_6.index t 1 * 128 ≤ (i 1).val ∧ (i 1).val < win1_6.index t 1 * 128 + 128
              rw [e5]; omega

/-- The second region's result array ends as `filt` of its arrays, whatever the region found. -/
theorem filt_array (c : Dev nD) :
    (dat1 V c).arrAt 6 cfg1.N = filt (V c main_arg3) (V c main_v28) (V c main_arg7) (V c main_v29) (V c main_arg9) (V c main_v30) :=
  (dat1 V c).arrAt_eq_of_cover 6 _ (fun t _ => filt_flushed V c t) (filt_cover)

end Cert.KernelIdeal.Rows

end
-- ==== Proof.Final.lean ====
/-
  The third region as one function of its arrays: the closing perceptron on the sum of the two aggregated features.

  The region walks the 20000 node rows in ten blocks of 2000. At point `t` it reads rows `2000 t …` of the edge
  aggregate and of the sequence aggregate, and the two weight matrices and two `1 × 128` biases whole; it writes back,
  as rows `2000 t …` of the result, `tanh ((a + s) · w₁ + b₁) · w₂ + b₂` row by row. A result row depends on the same
  row of the two aggregates alone, so point `t` writes block `t` of one function of the WHOLE arrays (`fin_flushed`);
  the ten blocks cover the result (`fin_cover`), which ends as that function (`fin_array`).
-/
import proofs.«155930_j31559419691086_2_alg».proof.Proof.Gen.KernelIdeal.Frame
import proofs.«155930_j31559419691086_2_alg».proof.Proof.Payload

noncomputable section

namespace Cert.KernelIdeal.Rows

open Cert.KernelIdeal Cert.KernelIdeal.Gen Cert.Schnet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets'' : (![0, 0] : Fin 2 → Nat) = fun _ => 0 := funext fun a => by fin_cases a <;> rfl

/-- Per node `r` and channel `q`: the closing perceptron of row `r` of the sum of the two aggregates. -/
def fin (a s : S20000x128.Idx → EReal) (w₁ : S128x128.Idx → EReal) (b₁ : S1x128.Idx → EReal)
    (w₂ : S128x128.Idx → EReal) (b₂ : S1x128.Idx → EReal) : S20000x128.Idx → EReal :=
  fun i => mlp (fun k => a (ix2 (i 0) k) + s (ix2 (i 0) k)) w₁ (fun j => b₁ (ix2 0 j)) w₂ (fun j => b₂ (ix2 0 j)) (i 1)

/-- Where the seven windows sit at point `t`: the two aggregates and the result at row block `t`, the weights and
    biases whole. -/
theorem fin_points : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The edge-aggregate window's block at point `t` holds rows `2000 t + p` of the edge aggregate. -/
theorem fin_agg_rows (c : Dev nD) (t : Fin cfg2.N) (p : Fin 2000) (k : Fin 128) (r : Fin 20000) (hr : r.val = 2000 * t.val + p.val) :
    (iblk2 V c 0 t : S2000x128.Idx → EReal) (ix2 p k) = (V c main_v35 : S20000x128.Idx → EReal) (ix2 r k) := by
  obtain ⟨e0, e1, -⟩ := fin_points t
  unfold iblk2
  rw [View.read_apply]
  show (V c main_v35 : S20000x128.Idx → EReal) _ = _
  refine congrArg _ (funext fun a => Fin.ext ?_)
  match a with
  | ⟨0, _⟩ => show win2_0.index t 0 * 2000 + 1 * p.val = r.val; rw [e0, hr]; omega
  | ⟨1, _⟩ => show win2_0.index t 1 * 128 + 1 * k.val = k.val; rw [e1]; omega

/-- The sequence-aggregate window's block at point `t` holds rows `2000 t + p` of the sequence aggregate. -/
theorem fin_seq_rows (c : Dev nD) (t : Fin cfg2.N) (p : Fin 2000) (k : Fin 128) (r : Fin 20000) (hr : r.val = 2000 * t.val + p.val) :
    (iblk2 V c 1 t : S2000x128.Idx → EReal) (ix2 p k) = (V c main_v84 : S20000x128.Idx → EReal) (ix2 r k) := by
  obtain ⟨-, -, e0, e1, -⟩ := fin_points t
  unfold iblk2
  rw [View.read_apply]
  show (V c main_v84 : S20000x128.Idx → EReal) _ = _
  refine congrArg _ (funext fun a => Fin.ext ?_)
  match a with
  | ⟨0, _⟩ => show win2_1.index t 0 * 2000 + 1 * p.val = r.val; rw [e0, hr]; omega
  | ⟨1, _⟩ => show win2_1.index t 1 * 128 + 1 * k.val = k.val; rw [e1]; omega

/-- The first weight window's block is the whole `128 × 128` matrix at every point. -/
theorem fin_w1 (c : Dev nD) (t : Fin cfg2.N) :
    (iblk2 V c 2 t : S128x128.Idx → EReal) = (V c main_arg12 : S128x128.Idx → EReal) := by
  obtain ⟨-, -, -, -, e0, e1, -⟩ := fin_points t
  funext y
  unfold iblk2
  rw [View.read_apply]
  show (V c main_arg12 : S128x128.Idx → EReal) _ = _
  refine congrArg _ (funext fun a => Fin.ext ?_)
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- The first bias window's block is the whole `1 × 128` bias at every point. -/
theorem fin_b1 (c : Dev nD) (t : Fin cfg2.N) :
    (iblk2 V c 3 t : S1x128.Idx → EReal) = (V c main_v85 : S1x128.Idx → EReal) := by
  obtain ⟨-, -, -, -, -, -, e0, e1, -⟩ := fin_points t
  funext y
  unfold iblk2
  rw [View.read_apply]
  show (V c main_v85 : S1x128.Idx → EReal) _ = _
  refine congrArg _ (funext fun a => Fin.ext ?_)
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- The second weight window's block is the whole `128 × 128` matrix at every point. -/
theorem fin_w2 (c : Dev nD) (t : Fin cfg2.N) :
    (iblk2 V c 4 t : S128x128.Idx → EReal) = (V c main_arg14 : S128x128.Idx → EReal) := by
  obtain ⟨-, -, -, -, -, -, -, -, e0, e1, -⟩ := fin_points t
  funext y
  unfold iblk2
  rw [View.read_apply]
  show (V c main_arg14 : S128x128.Idx → EReal) _ = _
  refine congrArg _ (funext fun a => Fin.ext ?_)
  match a with
  | ⟨0, _⟩ => show win2_4.index t 0 * 128 + 1 * (y 0).val = (y 0).val; rw [e0]; omega
  | ⟨1, _⟩ => show win2_4.index t 1 * 128 + 1 * (y 1).val = (y 1).val; rw [e1]; omega

/-- The second bias window's block is the whole `1 × 128` bias at every point. -/
theorem fin_b2 (c : Dev nD) (t : Fin cfg2.N) :
    (iblk2 V c 5 t : S1x128.Idx → EReal) = (V c main_v86 : S1x128.Idx → EReal) := by
  obtain ⟨-, -, -, -, -, -, -, -, -, -, e0, e1, -⟩ := fin_points t
  funext y
  unfold iblk2
  rw [View.read_apply]
  show (V c main_v86 : S1x128.Idx → EReal) _ = _
  refine congrArg _ (funext fun a => Fin.ext ?_)
  match a with
  | ⟨0, _⟩ => show win2_5.index t 0 * 1 + 1 * (y 0).val = (y 0).val; rw [e0]; omega
  | ⟨1, _⟩ => show win2_5.index t 1 * 128 + 1 * (y 1).val = (y 1).val; rw [e1]; omega

/-- What point `t` writes back is block `t` of `fin` of the whole arrays. -/
theorem fin_flushed (c : Dev nD) (t : Fin cfg2.N) :
    (dat2 V c).flushed 6 t = ((cfg2.win 6).blk t).view.read (Elt Ideal)
      (fin (V c main_v35) (V c main_v84) (V c main_arg12) (V c main_v85) (V c main_arg14) (V c main_v86)) := by
  obtain ⟨-, -, -, -, -, -, -, -, -, -, -, -, e4, e5⟩ := fin_points t
  have hN : t.val < 10 := by have h := t.isLt; have e : cfg2.N = 10 := N_2; omega
  show (cfg2.win 6).cut (grid2.coords t) ((dat2 V c).after 6 t) = _
  rw [after2_6]
  unfold out2_6
  rw [View.canon_unit_zero zero_offsets'']
  simp only [View.ld_unit_zero (S := S2000x128) zero_offsets'', View.ld_unit_zero (S := S1x128) zero_offsets'',
    View.ld_unit_zero (S := S128x128) zero_offsets'']
  funext j
  obtain ⟨p, q, rfl⟩ : ∃ (p : Fin 2000) (q : Fin 128), j = ix2 p q := ⟨j 0, j 1, eq_ix2 j⟩
  have hr : 2000 * t.val + p.val < 20000 := by omega
  have he : ((cfg2.win 6).blk t).view.emb (ix2 p q) = (ix2 (⟨2000 * t.val + p.val, hr⟩ : Fin 20000) q : S20000x128.Idx) :=
    funext fun a => Fin.ext (by
      match a with
      | ⟨0, _⟩ => show win2_6.index t 0 * 2000 + 1 * p.val = 2000 * t.val + p.val; rw [e4]; omega
      | ⟨1, _⟩ => show win2_6.index t 1 * 128 + 1 * q.val = q.val; rw [e5]; omega)
  show k2_pay1 (iblk2 V c 0 t) (iblk2 V c 1 t) (iblk2 V c 2 t) (iblk2 V c 3 t) (iblk2 V c 4 t) (iblk2 V c 5 t) (ix2 p q)
    = fin (V c main_v35) (V c main_v84) (V c main_arg12) (V c main_v85) (V c main_arg14) (V c main_v86) (((cfg2.win 6).blk t).view.emb (ix2 p q))
  rw [he]
  refine (final_entry (iblk2 V c 0 t) (iblk2 V c 1 t) (iblk2 V c 2 t) (iblk2 V c 3 t) (iblk2 V c 4 t) (iblk2 V c 5 t) p q).trans ?_
  rw [fin_w1 V c t, fin_b1 V c t, fin_w2 V c t, fin_b2 V c t]
  exact mlp_congr (fun k => by
      rw [fin_agg_rows V c t p k ⟨2000 * t.val + p.val, hr⟩ rfl, fin_seq_rows V c t p k ⟨2000 * t.val + p.val, hr⟩ rfl]) _ (fun _ => rfl) _ (fun _ => rfl) q

/-- Every node row of the result lies in the block of the point that owns it. -/
theorem fin_cover (i : S20000x128.Idx) : ∃ t : Fin cfg2.N, (cfg2.win 6).flush t = true ∧ i ∈ ((cfg2.win 6).blk t).view.set := by
  have h0 : (i 0).val < 20000 := (i 0).isLt
  have h1 : (i 1).val < 128 := (i 1).isLt
  have hN : cfg2.N = 10 := N_2
  let t : Fin cfg2.N := ⟨(i 0).val / 2000, by rw [hN]; omega⟩
  obtain ⟨-, -, -, -, -, -, -, -, -, -, -, -, e4, e5⟩ := fin_points t
  refine ⟨t, flush2_6 t, ?_⟩
  show i ∈ ((View.whole main_v87).slice (win2_6.rect t)).set
  rw [View.set_slice_whole, Rect.mem_set_unit]
  intro a
  match a with
  | ⟨0, _⟩ => show win2_6.index t 0 * 2000 ≤ (i 0).val ∧ (i 0).val < win2_6.index t 0 * 2000 + 2000
              rw [e4]; show (i 0).val / 2000 * 2000 ≤ (i 0).val ∧ (i 0).val < (i 0).val / 2000 * 2000 + 2000; omega
  | ⟨1, _⟩ => show win2_6.index t 1 * 128 ≤ (i 1).val ∧ (i 1).val < win2_6.index t 1 * 128 + 128
              rw [e5]; omega

/-- The third region's result array ends as `fin` of its arrays, whatever the region found. -/
theorem fin_array (c : Dev nD) :
    (dat2 V c).arrAt 6 cfg2.N = fin (V c main_v35) (V c main_v84) (V c main_arg12) (V c main_v85) (V c main_arg14) (V c main_v86) :=
  (dat2 V c).arrAt_eq_of_cover 6 _ (fun t _ => fin_flushed V c t) (fin_cover)

end Cert.KernelIdeal.Rows

end
-- ==== Proof.Bridge.lean ====
/-
  The kernel program's result and the reference's are one function of the arguments, on the extended reals.

  As functions of the node features `h` (the first dense layer's output) the kernel program computes:
  the gathered features `cutoff · h[src]`; the messages `filter(edge) · gathered`, per edge and channel; the edge
  aggregate, the messages added into their target nodes; and the output, the closing perceptron of the edge aggregate
  plus the sequence aggregate. The reference computes the messages as `h[src] · (filter(edge) · cutoff)`. The two
  message arrays agree entry by entry because a product of three extended reals may be regrouped and reordered
  (`Cert.Schnet.mul_regroup`); the scatter-adds, the gathers and the sequence aggregate are the same operations on
  both sides and are never opened. The dense layers agree because each is, row by row, the same sum
  (`rowMat`, `mlp`), whether computed block by block or at once.
-/
import proofs.«155930_j31559419691086_2_alg».proof.Proof.HostGlue
import proofs.«155930_j31559419691086_2_alg».proof.Proof.RefRows
import proofs.«155930_j31559419691086_2_alg».proof.Proof.Lin1
import proofs.«155930_j31559419691086_2_alg».proof.Proof.Filter
import proofs.«155930_j31559419691086_2_alg».proof.Proof.Final
import Idealize.ShloMosaic.Lib.ValueLayout

noncomputable section

namespace Cert.Bridge

open Cert.KernelIdeal Cert.KernelIdeal.Gen Cert.KernelIdeal.Rows Cert.ReferenceIdeal.Read Cert.ReferenceIdeal.Rows Cert.Schnet
open Idealize.ShloMosaic Idealize.ShloMosaic.ValueIdx

/-- The gathered features: the cutoff of each edge's length times the source node's features. -/
def kGathered (h : (⟨S20000x128, .f32⟩ : BufTy).Contents (Elt Ideal)) (x1 : (⟨S2x640000, .i32⟩ : BufTy).Contents (Elt Ideal)) (x2 : (⟨S640000, .f32⟩ : BufTy).Contents (Elt Ideal)) : (⟨S640000x128, .bf16⟩ : BufTy).Contents (Elt Ideal) :=
  truncf (F := Ideal) .bf16 (mulf (F := Ideal) (val_main_v23 (F := Ideal) x2)
    (Host.gather gather_S20000x128_S640000x1_S640000x128_1_0_n_n_0_1_1128 h (val_main_v35 (F := Ideal) x1))) bitsLt_bf16_f32

/-- The messages: per edge and channel, the filter perceptron of the edge's radial features times the gathered feature. -/
def kMessages (h : (⟨S20000x128, .f32⟩ : BufTy).Contents (Elt Ideal)) (x1 : (⟨S2x640000, .i32⟩ : BufTy).Contents (Elt Ideal)) (x2 : (⟨S640000, .f32⟩ : BufTy).Contents (Elt Ideal)) (x3 : (⟨S640000x64, .f32⟩ : BufTy).Contents (Elt Ideal))
    (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) : (⟨S640000x128, .bf16⟩ : BufTy).Contents (Elt Ideal) :=
  filt x3 (kGathered h x1 x2) x7 (shapeCast S1x128 x8 shapeCasts_S128_S1x128) x9 (shapeCast S1x128 x10 shapeCasts_S128_S1x128)

/-- The edge aggregate: the messages added into their target nodes. -/
def kAgg (h : (⟨S20000x128, .f32⟩ : BufTy).Contents (Elt Ideal)) (x1 : (⟨S2x640000, .i32⟩ : BufTy).Contents (Elt Ideal)) (x2 : (⟨S640000, .f32⟩ : BufTy).Contents (Elt Ideal)) (x3 : (⟨S640000x64, .f32⟩ : BufTy).Contents (Elt Ideal))
    (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) : (⟨S20000x128, .f32⟩ : BufTy).Contents (Elt Ideal) :=
  Host.scatterAdd scatter_S20000x128_S640000x1_S640000x128_1_0_0_1 (val_main_v38 (F := Ideal))
    (broadcastInDim S640000x1 ![0] bcast_S640000_S640000x1_0 (val_main_v29 (F := Ideal) x1))
    (extf (F := Ideal) .f32 (kMessages h x1 x2 x3 x7 x8 x9 x10) bitsLt_bf16_f32)

/-- The output: the closing perceptron of the edge aggregate plus the sequence aggregate. -/
def kOut (h : (⟨S20000x128, .f32⟩ : BufTy).Contents (Elt Ideal)) (x1 : (⟨S2x640000, .i32⟩ : BufTy).Contents (Elt Ideal)) (x2 : (⟨S640000, .f32⟩ : BufTy).Contents (Elt Ideal)) (x3 : (⟨S640000x64, .f32⟩ : BufTy).Contents (Elt Ideal))
    (x4 : (⟨S20000, .i32⟩ : BufTy).Contents (Elt Ideal)) (x5 : (⟨S2x39996, .i32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S3x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal))
    (x15 : (⟨S128, .f32⟩ : BufTy).Contents (Elt Ideal)) : (⟨S20000x128, .f32⟩ : BufTy).Contents (Elt Ideal) :=
  fin (kAgg h x1 x2 x3 x7 x8 x9 x10) (seqAgg h x4 x5 x11) x12 (shapeCast S1x128 x13 shapeCasts_S128_S1x128) x14
    (shapeCast S1x128 x15 shapeCasts_S128_S1x128)

variable (x0 : (⟨S20000x128, .f32⟩ : BufTy).Contents (Elt Ideal)) (x1 : (⟨S2x640000, .i32⟩ : BufTy).Contents (Elt Ideal)) (x2 : (⟨S640000, .f32⟩ : BufTy).Contents (Elt Ideal)) (x3 : (⟨S640000x64, .f32⟩ : BufTy).Contents (Elt Ideal))
    (x4 : (⟨S20000, .i32⟩ : BufTy).Contents (Elt Ideal)) (x5 : (⟨S2x39996, .i32⟩ : BufTy).Contents (Elt Ideal)) (x6 : (⟨S128x128, .f32⟩ : BufTy).Contents (Elt Ideal)) (x7 : (⟨S64x128, .f32⟩ : BufTy).Contents (Elt Ideal))
    (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S3x128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The first dense layer computed block of rows by block of rows is the reference's, computed at once. -/
theorem lin1_eq : lin1 x0 x6 = val_main_v25 (F := Ideal) x0 x6 := by
  funext i
  obtain ⟨r, q, rfl⟩ : ∃ (r : Fin 20000) (q : Fin 128), i = ix2 r q := ⟨i 0, i 1, eq_ix2 i⟩
  exact (lin1_ref x0 x6 r q).symm

/-- At the reference's node features the kernel program's messages are the reference's, entry by entry:
    `w · (c · g) = g · (w · c)`. -/
theorem messages_ref : extf (F := Ideal) .f32 (kMessages (val_main_v25 (F := Ideal) x0 x6) x1 x2 x3 x7 x8 x9 x10) bitsLt_bf16_f32
    = val_main_v37 (F := Ideal) x0 x1 x2 x3 x6 x7 x8 x9 x10 := by
  funext i
  obtain ⟨e, q, rfl⟩ : ∃ (e : Fin 640000) (q : Fin 128), i = ix2 e q := ⟨i 0, i 1, eq_ix2 i⟩
  have hw : mlp (fun k => x3 (ix2 e k)) x7 (fun j => shapeCast S1x128 x8 shapeCasts_S128_S1x128 (ix2 0 j)) x9
      (fun j => shapeCast S1x128 x10 shapeCasts_S128_S1x128 (ix2 0 j)) q = val_main_v21 (F := Ideal) x3 x7 x8 x9 x10 (ix2 e q) :=
    (mlp_congr (fun _ => rfl) x7 (fun j => shapeCast_a_1a_apply x8 shapeCasts_S128_S1x128 0 j) x9
      (fun j => shapeCast_a_1a_apply x10 shapeCasts_S128_S1x128 0 j) q).trans (filter_ref x3 x7 x8 x9 x10 e q).symm
  show mlp (fun k => x3 (ix2 e k)) x7 (fun j => shapeCast S1x128 x8 shapeCasts_S128_S1x128 (ix2 0 j)) x9
      (fun j => shapeCast S1x128 x10 shapeCasts_S128_S1x128 (ix2 0 j)) q
        * (val_main_v23 (F := Ideal) x2 (ix2 e q) * val_main_v36 (F := Ideal) x0 x1 x6 (ix2 e q))
      = val_main_v36 (F := Ideal) x0 x1 x6 (ix2 e q)
        * (val_main_v21 (F := Ideal) x3 x7 x8 x9 x10 (ix2 e q) * val_main_v23 (F := Ideal) x2 (ix2 e q))
  rw [hw]
  exact mul_regroup _ _ _

/-- So the edge aggregates agree: the same scatter-add of the same messages. -/
theorem agg_ref : kAgg (val_main_v25 (F := Ideal) x0 x6) x1 x2 x3 x7 x8 x9 x10
    = val_main_v40 (F := Ideal) x0 x1 x2 x3 x6 x7 x8 x9 x10 := by
  unfold kAgg
  rw [messages_ref]
  rfl

/-- At the reference's node features the kernel program's output is the reference's. -/
theorem out_ref : kOut (val_main_v25 (F := Ideal) x0 x6) x1 x2 x3 x4 x5 x7 x8 x9 x10 x11 x12 x13 x14 x15
    = val_main_v99 (F := Ideal) x0 x1 x2 x3 x4 x5 x6 x7 x8 x9 x10 x11 x12 x13 x14 x15 := by
  funext i
  obtain ⟨r, q, rfl⟩ : ∃ (r : Fin 20000) (q : Fin 128), i = ix2 r q := ⟨i 0, i 1, eq_ix2 i⟩
  rw [final_ref]
  unfold kOut
  rw [agg_ref, seqAgg_ref]
  exact mlp_congr (fun _ => rfl) x12 (fun j => shapeCast_a_1a_apply x13 shapeCasts_S128_S1x128 0 j) x14
    (fun j => shapeCast_a_1a_apply x15 shapeCasts_S128_S1x128 0 j) q

/-- The kernel program's output, with the first dense layer computed block by block, is the reference's result. -/
theorem out_eq : kOut (lin1 x0 x6) x1 x2 x3 x4 x5 x7 x8 x9 x10 x11 x12 x13 x14 x15
    = val_main_v99 (F := Ideal) x0 x1 x2 x3 x4 x5 x6 x7 x8 x9 x10 x11 x12 x13 x14 x15 := by
  rw [lin1_eq]
  exact out_ref x0 x1 x2 x3 x4 x5 x6 x7 x8 x9 x10 x11 x12 x13 x14 x15

end Cert.Bridge

end
-- ==== Proof.KernelValue.lean ====
/-
  The kernel program's result as one function of its arguments.

  The buffer contents are followed through the five segments of @main. The first region leaves the first dense layer
  `lin1` of the node features in its result array; the first host stretch turns that into the gathered features and
  reshapes two biases; the second region leaves the messages; the second host stretch adds the messages into their
  target nodes, forms the sequence aggregate from the first region's result, and reshapes the last two biases; the third
  region leaves the output. Each step reads one buffer at one boundary, and the arguments themselves are read back to
  the launch memory because no segment writes them. The conclusion (`result_value`): the third region's result array is
  `Cert.Bridge.kOut` of `lin1` of the arguments.
-/
import proofs.«155930_j31559419691086_2_alg».proof.Proof.Gen.KernelIdeal.Frame
import proofs.«155930_j31559419691086_2_alg».proof.Proof.Bridge

noncomputable section

namespace Cert.Bridge

open Cert.KernelIdeal Cert.KernelIdeal.Gen Cert.KernelIdeal.Rows Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## At the first region's exit -/

/-- A buffer that is none of the first region's arrays still holds its launch contents. -/
theorem W1_launch (b : Ref sig .tc) (hb : ∀ w, Pipeline.arrRef spec0 w ≠ b) :
    W1 m ρ c (Proc.devRef .tc b) = m ((c.tc : Thread nD τ).loc b) :=
  W1_of_ne m ρ c b hb

/-- The first region's result array holds the first dense layer of the node features. -/
theorem W1_v0 : W1 m ρ c (Proc.devRef .tc main_v0) = lin1 (m ((c.tc : Thread nD τ).loc main_arg0)) (m ((c.tc : Thread nD τ).loc main_arg6)) :=
  (W1_arr m ρ c 2).trans (lin1_array (V0 m ρ) c)

/-! ## At the second region's entry -/

theorem V2_arg3 : V2 m ρ c main_arg3 = (m ((c.tc : Thread nD τ).loc main_arg3)) :=
  (keep1_arg3 (W1 m ρ c)).trans (W1_launch m ρ c main_arg3 (by decide))
theorem V2_arg7 : V2 m ρ c main_arg7 = (m ((c.tc : Thread nD τ).loc main_arg7)) :=
  (keep1_arg7 (W1 m ρ c)).trans (W1_launch m ρ c main_arg7 (by decide))
theorem V2_arg9 : V2 m ρ c main_arg9 = (m ((c.tc : Thread nD τ).loc main_arg9)) :=
  (keep1_arg9 (W1 m ρ c)).trans (W1_launch m ρ c main_arg9 (by decide))

/-- The gathered features the second region reads. -/
theorem V2_v28 : V2 m ρ c main_v28 = kGathered (lin1 (m ((c.tc : Thread nD τ).loc main_arg0)) (m ((c.tc : Thread nD τ).loc main_arg6))) (m ((c.tc : Thread nD τ).loc main_arg1)) (m ((c.tc : Thread nD τ).loc main_arg2)) := by
  refine (gathered_eq (W1 m ρ c)).trans ?_
  rw [W1_v0, W1_launch m ρ c main_arg1 (by decide), W1_launch m ρ c main_arg2 (by decide)]
  rfl

/-- The two biases the second region reads, as `1 × 128` blocks. -/
theorem V2_v29 : V2 m ρ c main_v29 = shapeCast S1x128 (m ((c.tc : Thread nD τ).loc main_arg8)) shapeCasts_S128_S1x128 := by
  refine (bias1_eq (W1 m ρ c)).trans ?_
  rw [W1_launch m ρ c main_arg8 (by decide)]
theorem V2_v30 : V2 m ρ c main_v30 = shapeCast S1x128 (m ((c.tc : Thread nD τ).loc main_arg10)) shapeCasts_S128_S1x128 := by
  refine (bias2_eq (W1 m ρ c)).trans ?_
  rw [W1_launch m ρ c main_arg10 (by decide)]

/-! ## At the second region's exit -/

/-- The second region's result array holds the messages. -/
theorem W3_v31 : W3 m ρ c (Proc.devRef .tc main_v31)
    = kMessages (lin1 (m ((c.tc : Thread nD τ).loc main_arg0)) (m ((c.tc : Thread nD τ).loc main_arg6))) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) := by
  refine (W3_arr m ρ c 6).trans ?_
  rw [filt_array (V2 m ρ) c, V2_arg3, V2_v28, V2_arg7, V2_v29, V2_arg9, V2_v30]
  rfl

/-- The target-node indices, untouched by the second region. -/
theorem W3_v4 : W3 m ρ c (Proc.devRef .tc main_v4) = val_main_v29 (F := Ideal) (m ((c.tc : Thread nD τ).loc main_arg1)) := by
  refine (W3_of_ne m ρ c main_v4 (by decide)).trans ((targets_eq (W1 m ρ c)).trans ?_)
  rw [W1_launch m ρ c main_arg1 (by decide)]

/-- The first region's result, untouched by the first stretch and the second region. -/
theorem W3_v0 : W3 m ρ c (Proc.devRef .tc main_v0) = lin1 (m ((c.tc : Thread nD τ).loc main_arg0)) (m ((c.tc : Thread nD τ).loc main_arg6)) :=
  (W3_of_ne m ρ c main_v0 (by decide)).trans ((keep1_v0 (W1 m ρ c)).trans (W1_v0 m ρ c))

theorem W3_arg4 : W3 m ρ c (Proc.devRef .tc main_arg4) = (m ((c.tc : Thread nD τ).loc main_arg4)) :=
  (W3_of_ne m ρ c main_arg4 (by decide)).trans ((keep1_arg4 (W1 m ρ c)).trans (W1_launch m ρ c main_arg4 (by decide)))
theorem W3_arg5 : W3 m ρ c (Proc.devRef .tc main_arg5) = (m ((c.tc : Thread nD τ).loc main_arg5)) :=
  (W3_of_ne m ρ c main_arg5 (by decide)).trans ((keep1_arg5 (W1 m ρ c)).trans (W1_launch m ρ c main_arg5 (by decide)))
theorem W3_arg11 : W3 m ρ c (Proc.devRef .tc main_arg11) = (m ((c.tc : Thread nD τ).loc main_arg11)) :=
  (W3_of_ne m ρ c main_arg11 (by decide)).trans ((keep1_arg11 (W1 m ρ c)).trans (W1_launch m ρ c main_arg11 (by decide)))
theorem W3_arg12 : W3 m ρ c (Proc.devRef .tc main_arg12) = (m ((c.tc : Thread nD τ).loc main_arg12)) :=
  (W3_of_ne m ρ c main_arg12 (by decide)).trans ((keep1_arg12 (W1 m ρ c)).trans (W1_launch m ρ c main_arg12 (by decide)))
theorem W3_arg13 : W3 m ρ c (Proc.devRef .tc main_arg13) = (m ((c.tc : Thread nD τ).loc main_arg13)) :=
  (W3_of_ne m ρ c main_arg13 (by decide)).trans ((keep1_arg13 (W1 m ρ c)).trans (W1_launch m ρ c main_arg13 (by decide)))
theorem W3_arg14 : W3 m ρ c (Proc.devRef .tc main_arg14) = (m ((c.tc : Thread nD τ).loc main_arg14)) :=
  (W3_of_ne m ρ c main_arg14 (by decide)).trans ((keep1_arg14 (W1 m ρ c)).trans (W1_launch m ρ c main_arg14 (by decide)))
theorem W3_arg15 : W3 m ρ c (Proc.devRef .tc main_arg15) = (m ((c.tc : Thread nD τ).loc main_arg15)) :=
  (W3_of_ne m ρ c main_arg15 (by decide)).trans ((keep1_arg15 (W1 m ρ c)).trans (W1_launch m ρ c main_arg15 (by decide)))

/-! ## At the third region's entry -/

/-- The edge aggregate the third region reads. -/
theorem V4_v35 : V4 m ρ c main_v35
    = kAgg (lin1 (m ((c.tc : Thread nD τ).loc main_arg0)) (m ((c.tc : Thread nD τ).loc main_arg6))) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) := by
  refine (agg_eq (W3 m ρ c)).trans ?_
  rw [W3_v4, W3_v31]
  rfl

/-- The sequence aggregate the third region reads. -/
theorem V4_v84 : V4 m ρ c main_v84 = seqAgg (lin1 (m ((c.tc : Thread nD τ).loc main_arg0)) (m ((c.tc : Thread nD τ).loc main_arg6))) (m ((c.tc : Thread nD τ).loc main_arg4)) (m ((c.tc : Thread nD τ).loc main_arg5)) (m ((c.tc : Thread nD τ).loc main_arg11)) := by
  refine (seq_eq (W3 m ρ c)).trans ?_
  rw [W3_v0, W3_arg4, W3_arg5, W3_arg11]

theorem V4_arg12 : V4 m ρ c main_arg12 = (m ((c.tc : Thread nD τ).loc main_arg12)) :=
  (keep2_arg12 (W3 m ρ c)).trans (W3_arg12 m ρ c)
theorem V4_arg14 : V4 m ρ c main_arg14 = (m ((c.tc : Thread nD τ).loc main_arg14)) :=
  (keep2_arg14 (W3 m ρ c)).trans (W3_arg14 m ρ c)

/-- The two biases the third region reads, as `1 × 128` blocks. -/
theorem V4_v85 : V4 m ρ c main_v85 = shapeCast S1x128 (m ((c.tc : Thread nD τ).loc main_arg13)) shapeCasts_S128_S1x128 := by
  refine (bias3_eq (W3 m ρ c)).trans ?_
  rw [W3_arg13]
theorem V4_v86 : V4 m ρ c main_v86 = shapeCast S1x128 (m ((c.tc : Thread nD τ).loc main_arg15)) shapeCasts_S128_S1x128 := by
  refine (bias4_eq (W3 m ρ c)).trans ?_
  rw [W3_arg15]

/-! ## The result -/

/-- The third region's result array is the output function of the first dense layer of the arguments. -/
theorem result_value : (dat2 (V4 m ρ) c).arrAt 6 cfg2.N
    = kOut (lin1 (m ((c.tc : Thread nD τ).loc main_arg0)) (m ((c.tc : Thread nD τ).loc main_arg6))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [fin_array (V4 m ρ) c, V4_v35, V4_v84, V4_arg12, V4_v85, V4_arg14, V4_v86]
  rfl

end Cert.Bridge

end
-- ==== Proof.lean ====
/-
  The certificate of one continuous-filter interaction block: a Pallas kernel program of three regions against its
  plain reference, both read on the extended reals.

  Both programs compute, from node features `x`, an edge list with lengths and radial features, atom types and
  sequence neighbours: the first dense layer `h = x · W₁`; per edge the filter perceptron of the radial features and
  the cosine cutoff of the length; the messages, added into their target nodes; a sequence aggregate of `h`; and the
  closing perceptron of the sum of the two aggregates. The kernel program runs the three dense stages block of rows by
  block of rows and forms a message as `filter · (cutoff · h[src])`; the reference runs each dense stage at once and
  forms it as `h[src] · (filter · cutoff)`. On the extended reals a matrix product is the same sum whichever way it is
  blocked, a change of float format is the identity, and a product of three factors may be regrouped and reordered
  (commutativity and associativity alone: no finiteness is used), so the two results are equal entry by entry.

  * The three frames: the two kernel programs' are the generated frame certificates; the reference's is its generated
    run with the result dropped.
  * `preserves`: the idealization rewrote nothing, so there is nothing to state.
  * `algebraic`: the kernel program's run with its result named (`Cert.KernelIdeal.Whole.run_result`), the result as a
    function of the arguments (`Cert.Bridge.result_value`), the reference's generated run, and the equality of the two
    functions (`Cert.Bridge.out_eq`).
-/
import proofs.«155930_j31559419691086_2_alg».proof.Defs
import proofs.«155930_j31559419691086_2_alg».proof.Proof.Gen.Kernel
import proofs.«155930_j31559419691086_2_alg».proof.Proof.Gen.Kernel.Skeleton
import proofs.«155930_j31559419691086_2_alg».proof.Proof.Gen.Kernel.Launch
import proofs.«155930_j31559419691086_2_alg».proof.Proof.Gen.Kernel.Points
import proofs.«155930_j31559419691086_2_alg».proof.Proof.Gen.Kernel.Frame
import proofs.«155930_j31559419691086_2_alg».proof.Proof.Gen.KernelIdeal
import proofs.«155930_j31559419691086_2_alg».proof.Proof.Gen.KernelIdeal.Skeleton
import proofs.«155930_j31559419691086_2_alg».proof.Proof.Gen.KernelIdeal.Launch
import proofs.«155930_j31559419691086_2_alg».proof.Proof.Gen.KernelIdeal.Points
import proofs.«155930_j31559419691086_2_alg».proof.Proof.Gen.KernelIdeal.Frame
import proofs.«155930_j31559419691086_2_alg».proof.Proof.Gen.ReferenceIdeal
import proofs.«155930_j31559419691086_2_alg».proof.Proof.Gen.ReferenceIdeal.Run
import proofs.«155930_j31559419691086_2_alg».proof.Proof.Gen.ReferenceIdeal.Read
import proofs.«155930_j31559419691086_2_alg».proof.Proof.Gen.Pre_finite_inputs
import proofs.«155930_j31559419691086_2_alg».proof.Proof.KernelRun
import proofs.«155930_j31559419691086_2_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run and end with equal results: the kernel
    program's result array is the output function of the blockwise first dense layer of the arguments, the reference's
    is its last stage of the same arguments, and the two are one function. -/
theorem algebraic : Cert.algebraic_KernelIdeal_ReferenceIdeal := by
  intro m ρ m' ρ' _ hagree
  refine ⟨fun c => (Cert.KernelIdeal.Gen.dat2 (Cert.KernelIdeal.Gen.V4 m ρ) c).arrAt 6 Cert.KernelIdeal.cfg2.N,
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v99 m' c
    = (Cert.KernelIdeal.Gen.dat2 (Cert.KernelIdeal.Gen.V4 m ρ) c).arrAt 6 Cert.KernelIdeal.cfg2.N
  obtain ⟨h0, h1, h2, h3, h4, h5, h6, h7, h8, h9, h10, h11, h12, h13, h14, h15⟩ := hagree c
  rw [Cert.ReferenceIdeal.Read.val_main_v99_eq, Cert.Bridge.result_value m ρ c, h0, h1, h2, h3, h4, h5, h6, h7, h8, h9, h10, h11, h12, h13, h14, h15]
  exact (Cert.Bridge.out_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
